-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 62
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x64, .f32⟩
  | .hbm, ⟨38, _⟩ => ⟨S_, .f32⟩
  | .hbm, ⟨39, _⟩ => ⟨S100000x64, .f32⟩
  | .hbm, ⟨40, _⟩ => ⟨S1700000x1, .i32⟩
  | .hbm, ⟨41, _⟩ => ⟨S100000x64, .f32⟩
  | .hbm, ⟨42, _⟩ => ⟨S1x64, .f32⟩
  | .hbm, ⟨43, _⟩ => ⟨S100000x32, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x32, .f32⟩
  | .hbm, ⟨53, _⟩ => ⟨S_, .f32⟩
  | .hbm, ⟨54, _⟩ => ⟨S100000x32, .f32⟩
  | .hbm, ⟨55, _⟩ => ⟨S1700000x1, .i32⟩
  | .hbm, ⟨56, _⟩ => ⟨S100000x32, .f32⟩
  | .hbm, ⟨57, _⟩ => ⟨S100000x32, .f32⟩
  | .hbm, ⟨58, _⟩ => ⟨S100000x32, .f32⟩
  | .hbm, ⟨59, _⟩ => ⟨S1x32, .f32⟩
  | .hbm, ⟨60, _⟩ => ⟨S100000x32, .f32⟩
  | .hbm, ⟨61, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S32_S1x32 : S32.ShapeCasts S1x32
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelHost.lean ====
/-
  The idealized kernel program's value, read off its run. The program is: host operations that build the edge lists
  (the given edges followed by one self loop per node), the in-degree of every node as a scatter-add of ones, and its
  inverse square root (zero where the degree is not positive); a first kernel region; a gather of the region's rows at the
  source nodes scatter-added at the destination nodes; a second kernel region; the same gather and scatter-add; and a
  last scaling by the inverse square root plus the bias. Each boundary's buffer contents are the previous boundary's with
  the stretch's operations applied in order, or with a region's arrays replaced by what its pipeline leaves.
-/
import proofs.«151461_j37177236914410_2_alg».proof.Proof.Gen.KernelIdeal.Frame
import Idealize.ShloMosaic.Lib.StableHlo.Run

set_option maxRecDepth 16384

noncomputable section
namespace Cert.KernelIdeal.HostValue
open Cert.KernelIdeal Cert.KernelIdeal.Gen
open Idealize.ShloMosaic Idealize.ShloMosaic.TcCoe Idealize.SL.Sem Idealize.ShloMosaic.StableHlo
variable {F : FTy → Type} [FloatOps F]

/-! ## The host-side quantities as functions of the edge array -/

/-- The source nodes: row 0 of the edge array followed by the node numbers (the self loops). -/
def srcRaw (a1 : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] a1 slices_S2x1600000_S1x1600000_0_0) shapeCasts_S1x1600000_S1600000⟩,
      ⟨S100000, iotaInDim S100000 32 0⟩] concatenates_S1600000_S100000_S1700000_d0
/-- The destination nodes: row 1 of the edge array followed by the node numbers. -/
def dstRaw (a1 : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] a1 slices_S2x1600000_S1x1600000_1_0) shapeCasts_S1x1600000_S1600000⟩,
      ⟨S100000, iotaInDim S100000 32 0⟩] concatenates_S1600000_S100000_S1700000_d0
/-- An index vector as a column of one-component start indices. -/
def col (v : (⟨S1700000, .i32⟩ : BufTy).Contents (Elt F)) : (⟨S1700000x1, .i32⟩ : BufTy).Contents (Elt F) :=
  broadcastInDim S1700000x1 ![0] bcast_S1700000_S1700000x1_0 v
/-- A negative node number counts from the end: `v + N` where `v < 0`. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v
/-- The in-degree (self loop included): ones scatter-added at the destination nodes. -/
def deg (a1 : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32)) (col (dstRaw (F := F) a1))
    (broadcastInDim S1700000 ![] bcast_S_S1700000 (constant S_ .f32 0x3F800000#32))
/-- `deg^(-1/2)` where the degree is positive, zero elsewhere. -/
def dinv (a1 : (⟨S2x1600000, .i32⟩ : BufTy).Contents (Elt F)) : (⟨S100000, .f32⟩ : BufTy).Contents (Elt F) :=
  select (cmpf (F := F) .ogt (deg a1) (broadcastInDim S100000 ![] bcast_S_S100000 (constant S_ .f32 0x00000000#32)))
    (Host.rsqrt (deg a1)) (broadcastInDim S100000 ![] bcast_S_S100000 (id (constant S_ .f32 0x00000000#32)))
/-- One aggregation: the rows of `h` at the source nodes, summed into the destination nodes. -/
def agg64 (a1 : (⟨S2x1600000, .i32⟩ : BufTy).Contents (Elt F)) (h : (⟨S100000x64, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32)) (col (dstRaw (F := F) a1))
    (Host.gather gather_S100000x64_S1700000x1_S1700000x64_1_0_n_n_0_1_164 h (col (wrapIdx (F := F) (srcRaw (F := F) a1))))
def agg32 (a1 : (⟨S2x1600000, .i32⟩ : BufTy).Contents (Elt F)) (h : (⟨S100000x32, .f32⟩ : BufTy).Contents (Elt F)) :
    (⟨S100000x32, .f32⟩ : BufTy).Contents (Elt F) :=
  Host.scatterAdd scatter_S100000x32_S1700000x1_S1700000x32_1_0_0_1
    (broadcastInDim S100000x32 ![] bcast_S_S100000x32 (constant S_ .f32 0x00000000#32)) (col (dstRaw (F := F) a1))
    (Host.gather gather_S100000x32_S1700000x1_S1700000x32_1_0_n_n_0_1_132 h (col (wrapIdx (F := F) (srcRaw (F := F) a1))))

variable (m : (ℓ : Loc nD τ sig) → Buf (Elt F) ℓ) (ρ : Dev nD → PrngReg) (c : Dev nD)

/-- A buffer that no operation of a stretch writes keeps its contents. -/
macro "keeps" ops:ident : tactic => `(tactic| exact StableHlo.after_of_forall_not_mem _ _ (List.forall_iff_forall_mem.mp (by
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide))))

/-! ## Before the first region -/

set_option maxHeartbeats 4000000 in
theorem W1_v3 : W1 m ρ c (Proc.devRef .tc main_v3) = srcRaw (F := F) (m ((c : Thread nD τ).loc main_arg1)) := by
  show StableHlo.after hostOps0 (W0 m ρ c) (Proc.devRef .tc main_v3) = _
  after_results_simp
  rfl
set_option maxHeartbeats 4000000 in
theorem W1_v6 : W1 m ρ c (Proc.devRef .tc main_v6) = dstRaw (F := F) (m ((c : Thread nD τ).loc main_arg1)) := by
  show StableHlo.after hostOps0 (W0 m ρ c) (Proc.devRef .tc main_v6) = _
  after_results_simp
  rfl
set_option maxHeartbeats 4000000 in
theorem W1_v10 : W1 m ρ c (Proc.devRef .tc main_v10) = deg (F := F) (m ((c : Thread nD τ).loc main_arg1)) := by
  show StableHlo.after hostOps0 (W0 m ρ c) (Proc.devRef .tc main_v10) = _
  after_results_simp
  rfl
set_option maxHeartbeats 8000000 in
theorem W3_v3 : W3 m ρ c (Proc.devRef .tc main_v3) = srcRaw (F := F) (m ((c : Thread nD τ).loc main_arg1)) := by
  show StableHlo.after hostOps0_2 (StableHlo.after hostOps0_1 (StableHlo.after hostOps0 (W0 m ρ c))) (Proc.devRef .tc main_v3) = _
  after_results_simp
  rfl
set_option maxHeartbeats 8000000 in
theorem W3_v6 : W3 m ρ c (Proc.devRef .tc main_v6) = dstRaw (F := F) (m ((c : Thread nD τ).loc main_arg1)) := by
  show StableHlo.after hostOps0_2 (StableHlo.after hostOps0_1 (StableHlo.after hostOps0 (W0 m ρ c))) (Proc.devRef .tc main_v6) = _
  after_results_simp
  rfl
set_option maxHeartbeats 8000000 in
/-- The inverse square root of the degree, as the column the regions read. -/
theorem W3_v15 : W3 m ρ c (Proc.devRef .tc main_v15)
    = shapeCast S100000x1 (dinv (F := F) (m ((c : Thread nD τ).loc main_arg1))) shapeCasts_S100000_S100000x1 := by
  show StableHlo.after hostOps0_2 (StableHlo.after hostOps0_1 (StableHlo.after hostOps0 (W0 m ρ c))) (Proc.devRef .tc main_v15) = _
  after_results_simp
  rfl
set_option maxHeartbeats 8000000 in
theorem W3_arg (b : Ref sig .tc) (hb : b = main_arg0 ∨ b = main_arg2 ∨ b = main_arg3 ∨ b = main_arg4 ∨ b = main_arg5) :
    W3 m ρ c (Proc.devRef .tc b) = m ((c : Thread nD τ).loc b) := by
  show StableHlo.after hostOps0_2 (StableHlo.after hostOps0_1 (StableHlo.after hostOps0 (W0 m ρ c))) (Proc.devRef .tc b) = _
  rcases hb with rfl | rfl | rfl | rfl | rfl <;> (after_results_simp <;> rfl)

/-! ## After the first region -/

theorem W4_v16 : W4 m ρ c (Proc.devRef .tc main_v16) = (dat0 (V3 m ρ) c).arrAt 3 cfg0.N := W4_arr m ρ c 3
theorem W4_keep (b : Ref sig .tc) (hb : ∀ w, Pipeline.arrRef spec0 w ≠ b) :
    W4 m ρ c (Proc.devRef .tc b) = W3 m ρ c (Proc.devRef .tc b) := W4_of_ne m ρ c b hb

set_option maxHeartbeats 8000000 in
/-- The first aggregation, as the second region finds it. -/
theorem W5_v26 : W5 m ρ c (Proc.devRef .tc main_v26)
    = agg64 (F := F) (m ((c : Thread nD τ).loc main_arg1)) ((dat0 (V3 m ρ) c).arrAt 3 cfg0.N) := by
  show StableHlo.after hostOps1 (W4 m ρ c) (Proc.devRef .tc main_v26) = _
  after_results_simp
  rw [W4_v16, W4_keep m ρ c main_v3 (by decide), W4_keep m ρ c main_v6 (by decide), W3_v3, W3_v6]
  rfl
theorem W5_v27 : W5 m ρ c (Proc.devRef .tc main_v27) = shapeCast S1x64 (m ((c : Thread nD τ).loc main_arg3)) shapeCasts_S64_S1x64 := by
  show StableHlo.after hostOps1 (W4 m ρ c) (Proc.devRef .tc main_v27) = _
  after_results_simp
  rw [W4_keep m ρ c main_arg3 (by decide), W3_arg m ρ c main_arg3 (by simp)]
  rfl
theorem W5_v15 : W5 m ρ c (Proc.devRef .tc main_v15)
    = shapeCast S100000x1 (dinv (F := F) (m ((c : Thread nD τ).loc main_arg1))) shapeCasts_S100000_S100000x1 := by
  refine Eq.trans (b := W4 m ρ c (Proc.devRef .tc main_v15)) (by keeps hostOps1) ?_
  exact ((W4_arr m ρ c 2).trans (((dat0 (V3 m ρ) c).arrAt_in 2 rfl _).trans (A_eq0 (V3 m ρ) c 2))).trans (W3_v15 m ρ c)
theorem W5_v3 : W5 m ρ c (Proc.devRef .tc main_v3) = srcRaw (F := F) (m ((c : Thread nD τ).loc main_arg1)) := by
  refine Eq.trans (b := W4 m ρ c (Proc.devRef .tc main_v3)) (by keeps hostOps1) ?_
  rw [W4_keep m ρ c main_v3 (by decide), W3_v3]
theorem W5_v6 : W5 m ρ c (Proc.devRef .tc main_v6) = dstRaw (F := F) (m ((c : Thread nD τ).loc main_arg1)) := by
  refine Eq.trans (b := W4 m ρ c (Proc.devRef .tc main_v6)) (by keeps hostOps1) ?_
  rw [W4_keep m ρ c main_v6 (by decide), W3_v6]
theorem W5_arg4 : W5 m ρ c (Proc.devRef .tc main_arg4) = m ((c : Thread nD τ).loc main_arg4) := by
  refine Eq.trans (b := W4 m ρ c (Proc.devRef .tc main_arg4)) (by keeps hostOps1) ?_
  rw [W4_keep m ρ c main_arg4 (by decide), W3_arg m ρ c main_arg4 (by simp)]
theorem W5_arg5 : W5 m ρ c (Proc.devRef .tc main_arg5) = m ((c : Thread nD τ).loc main_arg5) := by
  refine Eq.trans (b := W4 m ρ c (Proc.devRef .tc main_arg5)) (by keeps hostOps1) ?_
  rw [W4_keep m ρ c main_arg5 (by decide), W3_arg m ρ c main_arg5 (by simp)]

/-! ## After the second region -/

theorem W6_v28 : W6 m ρ c (Proc.devRef .tc main_v28) = (dat1 (V5 m ρ) c).arrAt 4 cfg1.N := W6_arr m ρ c 4
/-- The second region only reads the column of inverse square roots. -/
theorem W6_v15 : W6 m ρ c (Proc.devRef .tc main_v15)
    = shapeCast S100000x1 (dinv (F := F) (m ((c : Thread nD τ).loc main_arg1))) shapeCasts_S100000_S100000x1 :=
  ((W6_arr m ρ c 1).trans (((dat1 (V5 m ρ) c).arrAt_in 1 rfl _).trans (A_eq1 (V5 m ρ) c 1))).trans (W5_v15 m ρ c)
theorem W6_keep (b : Ref sig .tc) (hb : ∀ w, Pipeline.arrRef spec1 w ≠ b) :
    W6 m ρ c (Proc.devRef .tc b) = W5 m ρ c (Proc.devRef .tc b) := W6_of_ne m ρ c b hb

set_option maxHeartbeats 8000000 in
/-- THE RESULT: the second aggregation scaled, row by row, by the inverse square root of the degree, plus the bias. -/
theorem W7_v43 : W7 m ρ c (Proc.devRef .tc main_v43)
    = addf (mulf (broadcastInDim S100000x32 ![0, 1] bcast_S100000x1_S100000x32_0_1
          (shapeCast S100000x1 (dinv (F := F) (m ((c : Thread nD τ).loc main_arg1))) shapeCasts_S100000_S100000x1))
        (agg32 (F := F) (m ((c : Thread nD τ).loc main_arg1)) ((dat1 (V5 m ρ) c).arrAt 4 cfg1.N)))
      (broadcastInDim S100000x32 ![0, 1] bcast_S1x32_S100000x32_0_1 (shapeCast S1x32 (m ((c : Thread nD τ).loc main_arg5)) shapeCasts_S32_S1x32)) := by
  show StableHlo.after hostOps2 (W6 m ρ c) (Proc.devRef .tc main_v43) = _
  after_results_simp
  rw [W6_v28, W6_keep m ρ c main_v3 (by decide), W6_keep m ρ c main_v6 (by decide), W6_v15,
    W6_keep m ρ c main_arg5 (by decide), W5_v3, W5_v6, W5_arg5]
  rfl
end Cert.KernelIdeal.HostValue
end
-- ==== Proof.RefValue.lean ====
/-
  The idealized reference program's value, named piece by piece. The reference computes, twice (once per layer): the
  product of the node features with the layer's weights; for every edge (the given edges followed by one self loop per
  node) the coefficient  dinv[src] · dinv[dst],  dinv the inverse square root of the in-degree (zero where the degree is
  not positive); the product's row at the edge's source times that coefficient; the sum of these rows into the edge's
  destination; plus the layer's bias. Between the layers the negative entries are replaced by zero.
-/
import proofs.«151461_j37177236914410_2_alg».proof.Proof.RefRun

set_option maxRecDepth 16384

noncomputable section
namespace Cert.ReferenceIdeal.RefValue
open Cert.ReferenceIdeal Cert.ReferenceIdeal.Gen
open Idealize.ShloMosaic Idealize.ShloMosaic.TcCoe Idealize.SL.Sem Idealize.ShloMosaic.StableHlo
variable {F : FTy → Type} [FloatOps F]

/-! ## The host-side quantities as functions of the edge array -/

/-- The source nodes: row 0 of the edge array followed by the node numbers (the self loops). -/
def srcRaw (a1 : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] a1 slices_S2x1600000_S1x1600000_0_0) shapeCasts_S1x1600000_S1600000⟩,
      ⟨S100000, iotaInDim S100000 32 0⟩] concatenates_S1600000_S100000_S1700000_d0
/-- The destination nodes: row 1 of the edge array followed by the node numbers. -/
def dstRaw (a1 : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] a1 slices_S2x1600000_S1x1600000_1_0) shapeCasts_S1x1600000_S1600000⟩,
      ⟨S100000, iotaInDim S100000 32 0⟩] concatenates_S1600000_S100000_S1700000_d0
/-- An index vector as a column of one-component start indices. -/
def col (v : (⟨S1700000, .i32⟩ : BufTy).Contents (Elt F)) : (⟨S1700000x1, .i32⟩ : BufTy).Contents (Elt F) :=
  broadcastInDim S1700000x1 ![0] bcast_S1700000_S1700000x1_0 v
/-- A negative node number counts from the end: `v + N` where `v < 0`. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v
/-- The in-degree (self loop included): ones scatter-added at the destination nodes. -/
def deg (a1 : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32)) (col (dstRaw (F := F) a1))
    (broadcastInDim S1700000 ![] bcast_S_S1700000 (constant S_ .f32 0x3F800000#32))
/-- `deg^(-1/2)` where the degree is positive, zero elsewhere. -/
def dinv (a1 : (⟨S2x1600000, .i32⟩ : BufTy).Contents (Elt F)) : (⟨S100000, .f32⟩ : BufTy).Contents (Elt F) :=
  select (cmpf (F := F) .ogt (deg a1) (broadcastInDim S100000 ![] bcast_S_S100000 (constant S_ .f32 0x00000000#32)))
    (Host.rsqrt (deg a1)) (broadcastInDim S100000 ![] bcast_S_S100000 (id (constant S_ .f32 0x00000000#32)))

/-- The per-edge coefficient  dinv[src] · dinv[dst]. -/
def coef (a1 : (⟨S2x1600000, .i32⟩ : BufTy).Contents (Elt F)) : (⟨S1700000, .f32⟩ : BufTy).Contents (Elt F) :=
  mulf (Host.gather gather_S100000_S1700000x1_S1700000_n_0_n_n_0_1_1 (dinv (F := F) a1) (col (wrapIdx (F := F) (srcRaw (F := F) a1))))
    (Host.gather gather_S100000_S1700000x1_S1700000_n_0_n_n_0_1_1 (dinv (F := F) a1) (col (wrapIdx (F := F) (dstRaw (F := F) a1))))
/-- The first layer's per-edge messages: the product's row at the source times the coefficient. -/
def msg64 (a1 : (⟨S2x1600000, .i32⟩ : BufTy).Contents (Elt F)) (h : (⟨S100000x64, .f32⟩ : BufTy).Contents (Elt F)) :
    (⟨S1700000x64, .f32⟩ : BufTy).Contents (Elt F) :=
  mulf (Host.gather gather_S100000x64_S1700000x1_S1700000x64_1_0_n_n_0_1_164 h (col (wrapIdx (F := F) (srcRaw (F := F) a1))))
    (broadcastInDim S1700000x64 ![0, 1] bcast_S1700000x1_S1700000x64_0_1 (broadcastInDim S1700000x1 ![0] bcast_S1700000_S1700000x1_0 (coef (F := F) a1)))
def msg32 (a1 : (⟨S2x1600000, .i32⟩ : BufTy).Contents (Elt F)) (h : (⟨S100000x32, .f32⟩ : BufTy).Contents (Elt F)) :
    (⟨S1700000x32, .f32⟩ : BufTy).Contents (Elt F) :=
  mulf (Host.gather gather_S100000x32_S1700000x1_S1700000x32_1_0_n_n_0_1_132 h (col (wrapIdx (F := F) (srcRaw (F := F) a1))))
    (broadcastInDim S1700000x32 ![0, 1] bcast_S1700000x1_S1700000x32_0_1 (broadcastInDim S1700000x1 ![0] bcast_S1700000_S1700000x1_0 (coef (F := F) a1)))
/-- The messages summed into their destinations. -/
def sum64 (a1 : (⟨S2x1600000, .i32⟩ : BufTy).Contents (Elt F)) (u : (⟨S1700000x64, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32)) (col (dstRaw (F := F) a1)) u
def sum32 (a1 : (⟨S2x1600000, .i32⟩ : BufTy).Contents (Elt F)) (u : (⟨S1700000x32, .f32⟩ : BufTy).Contents (Elt F)) :
    (⟨S100000x32, .f32⟩ : BufTy).Contents (Elt F) :=
  Host.scatterAdd scatter_S100000x32_S1700000x1_S1700000x32_1_0_0_1
    (broadcastInDim S100000x32 ![] bcast_S_S100000x32 (constant S_ .f32 0x00000000#32)) (col (dstRaw (F := F) a1)) u
/-- The first layer's features: the product with the weights. -/
def feat1 (x : (⟨S100000x128, .f32⟩ : BufTy).Contents (Elt F)) (w1 : (⟨S128x64, .f32⟩ : BufTy).Contents (Elt F)) :
    (⟨S100000x64, .f32⟩ : BufTy).Contents (Elt F) :=
  Host.dotGeneral dot_S100000x128_S128x64_S100000x64_1_0_0_1_n_n none x w1
/-- The hidden layer: the first convolution plus its bias, negative entries replaced by zero. -/
def hidden (x : (⟨S100000x128, .f32⟩ : BufTy).Contents (Elt F)) (a1 : (⟨S2x1600000, .i32⟩ : BufTy).Contents (Elt F))
    (w1 : (⟨S128x64, .f32⟩ : BufTy).Contents (Elt F)) (b1 : (⟨S64, .f32⟩ : BufTy).Contents (Elt F)) :
    (⟨S100000x64, .f32⟩ : BufTy).Contents (Elt F) :=
  maximumf (addf (sum64 (F := F) a1 (msg64 (F := F) a1 (feat1 (F := F) x w1)))
      (broadcastInDim S100000x64 ![0, 1] bcast_S1x64_S100000x64_0_1 (broadcastInDim S1x64 ![1] bcast_S64_S1x64_1 b1)))
    (broadcastInDim S100000x64 ![] bcast_S_S100000x64 (constant S_ .f32 0x00000000#32))
def feat2 (h : (⟨S100000x64, .f32⟩ : BufTy).Contents (Elt F)) (w2 : (⟨S64x32, .f32⟩ : BufTy).Contents (Elt F)) :
    (⟨S100000x32, .f32⟩ : BufTy).Contents (Elt F) :=
  Host.dotGeneral dot_S100000x64_S64x32_S100000x32_1_0_0_1_n_n none h w2
/-- The reference's result as one function of its six arguments. -/
def out (x : (⟨S100000x128, .f32⟩ : BufTy).Contents (Elt F)) (a1 : (⟨S2x1600000, .i32⟩ : BufTy).Contents (Elt F))
    (w1 : (⟨S128x64, .f32⟩ : BufTy).Contents (Elt F)) (b1 : (⟨S64, .f32⟩ : BufTy).Contents (Elt F))
    (w2 : (⟨S64x32, .f32⟩ : BufTy).Contents (Elt F)) (b2 : (⟨S32, .f32⟩ : BufTy).Contents (Elt F)) :
    (⟨S100000x32, .f32⟩ : BufTy).Contents (Elt F) :=
  addf (sum32 (F := F) a1 (msg32 (F := F) a1 (feat2 (F := F) (hidden (F := F) x a1 w1 b1) w2)))
    (broadcastInDim S100000x32 ![0, 1] bcast_S1x32_S100000x32_0_1 (broadcastInDim S1x32 ![1] bcast_S32_S1x32_1 b2))

set_option maxHeartbeats 4000000 in
/-- The run's composed term IS that function of the launch contents of the arguments. -/
theorem res_eq (m : (ℓ : Loc nD τ sig) → Buf (Elt F) ℓ) (c : Dev nD) :
    Cert.ReferenceIdeal.ValueP.res_main_v87 (F := F) m c
      = out (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v87 out hidden feat2 feat1 sum32 sum64 msg32 msg64 coef dinv deg wrapIdx col dstRaw srcRaw
  rfl

end Cert.ReferenceIdeal.RefValue
end
-- ==== Proof.LibRowGatherScatter.lean ====
/-
  A row gather, a vector gather and a row scatter-add, read at an index, and the law that lets a
  per-edge factor D[src] * D[dst] of a segment sum be split into a scaling of the gathered rows
  by D[src] before the sum and a scaling of each target row by D[dst] after it.

  h[idx] of a matrix h : [N, Fw] at idx : [E] is a gather with start indices [E, 1]: result row e is the
  operand's row at the start index read signed and clamped into [0, N - 1]. v[idx] of a vector is the same with no
  window axis. A segment sum of updates [E, Fw] into [N, Fw] is a scatter with an add body: update row e lands on
  the row its scatter index names when that is in range (read signed, not clamped), and is dropped otherwise.
-/
import Idealize.ShloMosaic.PureOps.Ideal
import Idealize.ShloMosaic.Lib.ValueIdx
import Mathlib.Data.EReal.Operations

noncomputable section

open scoped BigOperators

namespace Idealize.ShloMosaic.RowTake

open Idealize.ShloMosaic Idealize.ShloMosaic.ValueIdx

/-- dimension numbers of  h[idx]  for h:[N,Fw], idx:[E,1] -/
abbrev rowGather (N E Fw : Nat) (wf : GatherDims.WF ⟨2, ![N, Fw]⟩ ⟨2, ![E, 1]⟩ ⟨2, ![E, Fw]⟩ [1] [0] [] [0] [] 1 ![1, Fw]) :
    GatherDims ⟨2, ![N, Fw]⟩ ⟨2, ![E, 1]⟩ ⟨2, ![E, Fw]⟩ where
  offsetDims := [1]
  collapsedSliceDims := [0]
  operandBatchingDims := []
  startIndicesBatchingDims := []
  startIndexMap := [0]
  indexVectorDim := 1
  sliceSizes := ![1, Fw]
  wf := wf

/-- dimension numbers of  v[idx]  for v:[N], idx:[E,1] -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- dimension numbers of  segment_sum  of updates [E,Fw] into [N,Fw] at scatter indices [E,1] -/
abbrev rowScatter (N E Fw : Nat) (wf : ScatterDims.WF ⟨2, ![N, Fw]⟩ ⟨2, ![E, 1]⟩ ⟨2, ![E, Fw]⟩ [1] [0] [0] 1) :
    ScatterDims ⟨2, ![N, Fw]⟩ ⟨2, ![E, 1]⟩ ⟨2, ![E, Fw]⟩ where
  updateWindowDims := [1]
  insertedWindowDims := [0]
  scatterDimsToOperandDims := [0]
  indexVectorDim := 1
  wf := wf

/-- the clamped row a start index selects -/
def clampRow {N E w : Nat} (hN : 0 < N) (idx : IVec ⟨2, ![E, 1]⟩ w) (e : Fin E) : Fin N :=
  ⟨min (idx (ix2 e (0 : Fin 1))).toInt.toNat (N - 1), by omega⟩

/-! ## The row gather at an index -/

/-- The start-indices index a row gather's result index (e, f) reads its one start index at is [e, 0]. -/
theorem rowGather_siIdx {N E Fw : Nat} (wf) (e : Fin E) (f : Fin Fw) (h) :
    (rowGather N E Fw wf).siIdx (ix2 e f) ⟨List.idxOf (0 : Fin 2) (rowGather N E Fw wf).startIndexMap, h⟩
      = ix2 e (0 : Fin 1) := by
  funext b; refine Fin.ext ?_
  match b with
  | ⟨0, _⟩ => rfl
  | ⟨1, _⟩ => rfl

/-- On the row axis a row gather reads the clamped start index. -/
theorem rowGather_operandIdx0 {N E Fw w : Nat} (hN : 0 < N) (wf) (idx : IVec ⟨2, ![E, 1]⟩ w) (e : Fin E) (f : Fin Fw) :
    ((rowGather N E Fw wf).operandIdx (ix2 e f) idx (0 : Fin 2)).val = (clampRow hN idx e).val := by
  show (rowGather N E Fw wf).start (ix2 e f) idx (0 : Fin 2) + (rowGather N E Fw wf).batchCoord (ix2 e f) (0 : Fin 2)
      + (rowGather N E Fw wf).offCoord (ix2 e f) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E Fw wf).startIndexMap from List.mem_singleton.mpr rfl)]
  rw [rowGather_siIdx]
  rfl

/-- On the column axis a row gather reads the result's column. -/
theorem rowGather_operandIdx1 {N E Fw w : Nat} (wf) (idx : IVec ⟨2, ![E, 1]⟩ w) (e : Fin E) (f : Fin Fw) :
    ((rowGather N E Fw wf).operandIdx (ix2 e f) idx (1 : Fin 2)).val = f.val := by
  show (rowGather N E Fw wf).start (ix2 e f) idx (1 : Fin 2) + (rowGather N E Fw wf).batchCoord (ix2 e f) (1 : Fin 2)
      + (rowGather N E Fw wf).offCoord (ix2 e f) (1 : Fin 2) = _
  rw [GatherDims.batchCoord_eq_zero _ _ _ List.not_mem_nil]
  unfold GatherDims.start
  rw [dif_neg (show (1 : Fin 2) ∉ (rowGather N E Fw wf).startIndexMap from (by decide : (1 : Fin 2) ∉ ([0] : List (Fin 2))))]
  simp only [Nat.add_zero, Nat.zero_add]
  unfold GatherDims.offCoord
  rw [dif_pos (show (1 : Fin 2) ∈ (rowGather N E Fw wf).sKept from
    (GatherDims.mem_sKept _ _).mpr ⟨(by decide : (1 : Fin 2) ∉ ([0] : List (Fin 2))), List.not_mem_nil⟩)]
  rfl

theorem rowGather_apply {α : Type} {N E Fw w : Nat} (hN : 0 < N) (wf) (x : (⟨2, ![N, Fw]⟩ : Shape).Idx → α)
    (idx : IVec ⟨2, ![E, 1]⟩ w) (e : Fin E) (f : Fin Fw) :
    Host.gather (rowGather N E Fw wf) x idx (ix2 e f) = x (ix2 (clampRow hN idx e) f) := by
  unfold Host.gather
  congr 1
  funext a
  refine Fin.ext ?_
  match a with
  | ⟨0, _⟩ => exact rowGather_operandIdx0 hN wf idx e f
  | ⟨1, _⟩ => exact rowGather_operandIdx1 wf idx e f

/-! ## The vector gather at an index -/

/-- The start-indices index a vector gather's result index (e) reads its one start index at is [e, 0]. -/
theorem vecGather_siIdx {N E : Nat} (wf) (e : Fin E) (h) :
    (vecGather N E wf).siIdx (ix1 e) ⟨List.idxOf (0 : Fin 1) (vecGather N E wf).startIndexMap, h⟩
      = ix2 e (0 : Fin 1) := by
  funext b; refine Fin.ext ?_
  match b with
  | ⟨0, _⟩ => rfl
  | ⟨1, _⟩ => rfl

theorem vecGather_apply {α : Type} {N E w : Nat} (hN : 0 < N) (wf) (x : (⟨1, ![N]⟩ : Shape).Idx → α)
    (idx : IVec ⟨2, ![E, 1]⟩ w) (e : Fin E) :
    Host.gather (vecGather N E wf) x idx (ix1 e) = x (ix1 (clampRow hN idx e)) := by
  unfold Host.gather
  congr 1
  funext a
  obtain rfl : a = 0 := Subsingleton.elim _ _
  refine Fin.ext ?_
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  rw [vecGather_siIdx]
  rfl

/-! ## The row scatter: where an update lands -/

/-- The scatter-indices index a row scatter's update index (e, f) reads its one scatter index at is [e, 0]. -/
theorem rowScatter_siIdx {N E Fw : Nat} (wf) (e : Fin E) (f : Fin Fw) (h) :
    (rowScatter N E Fw wf).siIdx (ix2 e f) ⟨List.idxOf (0 : Fin 2) (rowScatter N E Fw wf).scatterDimsToOperandDims, h⟩
      = ix2 e (0 : Fin 1) := by
  funext b; refine Fin.ext ?_
  match b with
  | ⟨0, _⟩ => rfl
  | ⟨1, _⟩ => rfl

/-- On the row axis the window starts at the scatter index, read signed. -/
theorem rowScatter_start0 {N E Fw w : Nat} (wf) (idx : IVec ⟨2, ![E, 1]⟩ w) (e : Fin E) (f : Fin Fw) :
    (rowScatter N E Fw wf).start (ix2 e f) idx (0 : Fin 2) = (idx (ix2 e (0 : Fin 1))).toInt := by
  unfold ScatterDims.start
  rw [dif_pos (show (0 : Fin 2) ∈ (rowScatter N E Fw wf).scatterDimsToOperandDims from List.mem_singleton.mpr rfl)]
  rw [rowScatter_siIdx]

/-- On the column axis the window starts at 0. -/
theorem rowScatter_start1 {N E Fw w : Nat} (wf) (idx : IVec ⟨2, ![E, 1]⟩ w) (e : Fin E) (f : Fin Fw) :
    (rowScatter N E Fw wf).start (ix2 e f) idx (1 : Fin 2) = 0 := by
  unfold ScatterDims.start
  rw [dif_neg (show (1 : Fin 2) ∉ (rowScatter N E Fw wf).scatterDimsToOperandDims from
    (by decide : (1 : Fin 2) ∉ ([0] : List (Fin 2))))]

/-- The row axis is inserted: its window coordinate is 0. -/
theorem rowScatter_window0 {N E Fw : Nat} (wf) (e : Fin E) (f : Fin Fw) :
    (rowScatter N E Fw wf).window (ix2 e f) (0 : Fin 2) = 0 := by
  unfold ScatterDims.window
  rw [dif_neg]
  intro h
  have h' : (0 : Fin 2) ∉ ([0] : List (Fin 2)) := by
    simpa [ScatterDims.sKept, Shape.kept, List.mem_filter, List.mem_finRange] using h
  exact h' (List.mem_singleton.mpr rfl)

/-- The column axis is the window axis: its window coordinate is the update's column. -/
theorem rowScatter_window1 {N E Fw : Nat} (wf) (e : Fin E) (f : Fin Fw) :
    (rowScatter N E Fw wf).window (ix2 e f) (1 : Fin 2) = f.val := by
  unfold ScatterDims.window
  rw [dif_pos (show (1 : Fin 2) ∈ (rowScatter N E Fw wf).sKept by
    simp [ScatterDims.sKept, Shape.kept, List.mem_filter, List.mem_finRange])]
  rfl

/-- an update lands on (n,f) exactly when its scatter index, read signed, is n and its column is f -/
theorem rowScatter_resultIdx_eq_some {N E Fw w : Nat} (wf) (idx : IVec ⟨2, ![E, 1]⟩ w) (e : Fin E) (f' : Fin Fw)
    (n : Fin N) (f : Fin Fw) :
    (rowScatter N E Fw wf).resultIdx? (ix2 e f') idx = some (ix2 n f)
      ↔ ((idx (ix2 e (0 : Fin 1))).toInt = (n.val : Int) ∧ f' = f) := by
  have hs0 : (⟨2, ![N, Fw]⟩ : Shape).size (0 : Fin 2) = N := rfl
  have hs1 : (⟨2, ![N, Fw]⟩ : Shape).size (1 : Fin 2) = Fw := rfl
  have hn := n.isLt
  have hf := f.isLt
  have hf' := f'.isLt
  constructor
  · intro h
    unfold ScatterDims.resultIdx? at h
    split at h
    · rename_i hin
      have hg := Option.some.inj h
      have h0 : ((rowScatter N E Fw wf).start (ix2 e f') idx (0 : Fin 2)
          + ((rowScatter N E Fw wf).window (ix2 e f') (0 : Fin 2) : Int)).toNat = n.val :=
        congrArg (fun g => (g (0 : Fin 2)).val) hg
      have h1 : ((rowScatter N E Fw wf).start (ix2 e f') idx (1 : Fin 2)
          + ((rowScatter N E Fw wf).window (ix2 e f') (1 : Fin 2) : Int)).toNat = f.val :=
        congrArg (fun g => (g (1 : Fin 2)).val) hg
      have hin0 := (hin (0 : Fin 2)).1
      rw [rowScatter_start0, rowScatter_window0] at h0 hin0
      rw [rowScatter_start1, rowScatter_window1] at h1
      exact ⟨by omega, Fin.ext (by omega)⟩
    · exact absurd h (by simp)
  · rintro ⟨h0, rfl⟩
    unfold ScatterDims.resultIdx?
    have hin : ∀ a, 0 ≤ (rowScatter N E Fw wf).start (ix2 e f') idx a + ((rowScatter N E Fw wf).window (ix2 e f') a : Int)
        ∧ (rowScatter N E Fw wf).start (ix2 e f') idx a + ((rowScatter N E Fw wf).window (ix2 e f') a : Int)
          < ((⟨2, ![N, Fw]⟩ : Shape).size a : Int) := by
      intro a
      match a with
      | ⟨0, _⟩ =>
        show 0 ≤ (rowScatter N E Fw wf).start (ix2 e f') idx (0 : Fin 2) + ((rowScatter N E Fw wf).window (ix2 e f') (0 : Fin 2) : Int)
          ∧ (rowScatter N E Fw wf).start (ix2 e f') idx (0 : Fin 2) + ((rowScatter N E Fw wf).window (ix2 e f') (0 : Fin 2) : Int)
            < ((⟨2, ![N, Fw]⟩ : Shape).size (0 : Fin 2) : Int)
        rw [rowScatter_start0, rowScatter_window0, hs0]
        omega
      | ⟨1, _⟩ =>
        show 0 ≤ (rowScatter N E Fw wf).start (ix2 e f') idx (1 : Fin 2) + ((rowScatter N E Fw wf).window (ix2 e f') (1 : Fin 2) : Int)
          ∧ (rowScatter N E Fw wf).start (ix2 e f') idx (1 : Fin 2) + ((rowScatter N E Fw wf).window (ix2 e f') (1 : Fin 2) : Int)
            < ((⟨2, ![N, Fw]⟩ : Shape).size (1 : Fin 2) : Int)
        rw [rowScatter_start1, rowScatter_window1, hs1]
        omega
    rw [dif_pos hin]
    congr 1
    funext a
    refine Fin.ext ?_
    match a with
    | ⟨0, _⟩ =>
      show ((rowScatter N E Fw wf).start (ix2 e f') idx (0 : Fin 2)
          + ((rowScatter N E Fw wf).window (ix2 e f') (0 : Fin 2) : Int)).toNat = n.val
      rw [rowScatter_start0, rowScatter_window0]
      omega
    | ⟨1, _⟩ =>
      show ((rowScatter N E Fw wf).start (ix2 e f') idx (1 : Fin 2)
          + ((rowScatter N E Fw wf).window (ix2 e f') (1 : Fin 2) : Int)).toNat = f'.val
      rw [rowScatter_start1, rowScatter_window1]
      omega

/-! ## The factoring law -/

/-- Multiplication by a nonnegative real distributes over a finite sum of extended reals (the extended reals are not
    a semiring: a product distributes over a sum when the factor is a nonnegative real). -/
theorem coe_mul_finset_sum {ι : Type*} (r : ℝ) (hr : 0 ≤ r) (s : Finset ι) (g : ι → EReal) :
    (r : EReal) * ∑ i ∈ s, g i = ∑ i ∈ s, (r : EReal) * g i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- A start index that reads, signed, as the in-range row n clamps to n. -/
theorem clampRow_eq_of_toInt {N E w : Nat} (hN : 0 < N) (idx : IVec ⟨2, ![E, 1]⟩ w) (e : Fin E) (n : Fin N)
    (h : (idx (ix2 e (0 : Fin 1))).toInt = (n.val : Int)) : clampRow hN idx e = n := by
  refine Fin.ext ?_
  show min (idx (ix2 e (0 : Fin 1))).toInt.toNat (N - 1) = n.val
  have hn := n.isLt
  rw [h]
  omega

/-- THE LAW. A segment sum whose update row e is the gathered row H[src e] times D[src e] * D[dst e] is D[n] times
    the segment sum of the rows of the pre-scaled matrix HD = H * D (row-wise): an update lands on row n exactly when
    its scatter index is n, so the factor D[dst e] is D[n] on every update of the sum, and a nonnegative real factor
    comes out of a finite sum of extended reals. -/
theorem rowScatter_norm_factor {N E Fw : Nat} (hN : 0 < N) (wfg) (wfv) (wfs)
    (H HD Z : (⟨2, ![N, Fw]⟩ : Shape).Idx → EReal) (D : (⟨1, ![N]⟩ : Shape).Idx → EReal)
    (hD : ∀ n : Fin N, ∃ r : ℝ, 0 ≤ r ∧ D (ix1 n) = (r : EReal))
    (hZ : ∀ i, Z i = 0)
    (hHD : ∀ (n : Fin N) (f : Fin Fw), HD (ix2 n f) = H (ix2 n f) * D (ix1 n))
    (sN dR dN : IVec ⟨2, ![E, 1]⟩ 32)
    (hdN : ∀ e : Fin E, 0 ≤ (dR (ix2 e (0 : Fin 1))).toInt → (dR (ix2 e (0 : Fin 1))).toInt < (N : Int) →
      dN (ix2 e (0 : Fin 1)) = dR (ix2 e (0 : Fin 1)))
    (M : (⟨2, ![E, Fw]⟩ : Shape).Idx → EReal)
    (hM : ∀ (e : Fin E) (f : Fin Fw), M (ix2 e f) = Host.gather (rowGather N E Fw wfg) H sN (ix2 e f)
        * (Host.gather (vecGather N E wfv) D sN (ix1 e) * Host.gather (vecGather N E wfv) D dN (ix1 e)))
    (n : Fin N) (f : Fin Fw) :
    Ideal.hostScatterAdd (rowScatter N E Fw wfs) Z dR M (ix2 n f)
      = D (ix1 n) * Ideal.hostScatterAdd (rowScatter N E Fw wfs) Z dR (Host.gather (rowGather N E Fw wfg) HD sN) (ix2 n f) := by
  obtain ⟨r, hr0, hr⟩ := hD n
  unfold Ideal.hostScatterAdd
  rw [hZ, zero_add, zero_add, hr, coe_mul_finset_sum r hr0]
  refine Finset.sum_congr rfl ?_
  intro j hj
  obtain ⟨e, f', rfl⟩ : ∃ (e : Fin E) (f' : Fin Fw), j = ix2 e f' := ⟨j 0, j 1, eq_ix2 j⟩
  have hland := (rowScatter_resultIdx_eq_some wfs dR e f' n f).mp (Finset.mem_filter.mp hj).2
  have hn := n.isLt
  have hdd : dN (ix2 e (0 : Fin 1)) = dR (ix2 e (0 : Fin 1)) := hdN e (by omega) (by omega)
  have hc : clampRow hN dN e = n := clampRow_eq_of_toInt hN dN e n (by rw [hdd]; exact hland.1)
  rw [hM e f', rowGather_apply hN wfg H sN e f', vecGather_apply hN wfv D sN e, vecGather_apply hN wfv D dN e,
    rowGather_apply hN wfg HD sN e f', hHD, hc, hr, ← mul_assoc, mul_comm]

end Idealize.ShloMosaic.RowTake

end
-- ==== Proof.LibLayoutReads.lean ====
/-
  Layout operations of a host program read at an index written by its coordinates: a broadcast of a scalar, of a
  vector to a column or a row, of a column or a row to a matrix; a vector cast to a one-row matrix; a plain matrix
  product read at (i, j) as the sum over the contracted coordinate; and two scalar facts: the guarded reciprocal
  square root select(x > 0, rsqrt x, 0) is a nonnegative real, and the wrap of a negative index leaves a
  nonnegative 32-bit word alone.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.LayoutReads

open Idealize.ShloMosaic Idealize.ShloMosaic.ValueIdx

variable {α : Type}

/-! ## Broadcasts at an index -/

/-- A broadcast scalar reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector [a] broadcast to a column [a, 1] reads, at (i, u), the vector at i. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) :=
  broadcastInDim_apply _ h x _ (ix1 i) (fun c => by
    have hi := i.isLt
    match c with
    | ⟨0, _⟩ =>
      show i.val = if a = 1 then 0 else i.val
      split <;> omega)

/-- A vector [b] broadcast to a row [1, b] reads, at (u, j), the vector at j. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) :=
  broadcastInDim_apply _ h x _ (ix1 j) (fun c => by
    have hj := j.isLt
    match c with
    | ⟨0, _⟩ =>
      show j.val = if b = 1 then 0 else j.val
      split <;> omega)

/-- A column [a, 1] broadcast to a matrix [a, b] reads, at (i, j), the column at (i, 0). -/
theorem bcast_col_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply _ h x _ (ix2 i (0 : Fin 1)) (fun c => by
    have hi := i.isLt
    match c with
    | ⟨0, _⟩ =>
      show i.val = if a = 1 then 0 else i.val
      split <;> omega
    | ⟨1, _⟩ =>
      show 0 = if 1 = 1 then 0 else j.val
      rfl)

/-- A row [1, b] broadcast to a matrix [a, b] reads, at (i, j), the row at (0, j). -/
theorem bcast_row_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) :=
  broadcastInDim_apply _ h x _ (ix2 (0 : Fin 1) j) (fun c => by
    have hj := j.isLt
    match c with
    | ⟨0, _⟩ =>
      show 0 = if 1 = 1 then 0 else i.val
      rfl
    | ⟨1, _⟩ =>
      show j.val = if b = 1 then 0 else j.val
      split <;> omega)

/-- A vector [b] cast to a one-row matrix [1, b] reads, at (u, j), the vector at j. -/
theorem shapeCast_vec_row_apply {b : ℕ} (h : (⟨1, ![b]⟩ : Shape).ShapeCasts ⟨2, ![1, b]⟩)
    (x : (⟨1, ![b]⟩ : Shape).Idx → α) (u : Fin 1) (j : Fin b) : shapeCast ⟨2, ![1, b]⟩ x h (ix2 u j) = x (ix1 j) :=
  shapeCast_a_1a_apply x h u j

/-! ## Two scalar facts -/

/-- The guarded reciprocal square root, select(x > 0, rsqrt x, 0), is a nonnegative real at every extended real x:
    0 off the positive half-line, 0 at the top, and the inverse of the square root at a positive real. -/
theorem dinv_nonneg_real (x : EReal) :
    ∃ r : ℝ, 0 ≤ r ∧ Scalar.select (Ideal.cmp .ogt x 0) (Ideal.rsqrt x) 0 = (r : EReal) := by
  by_cases hx : 0 < x
  · have hc : Ideal.cmp .ogt x 0 = 1#1 := by simp [Ideal.cmp, hx]
    rw [hc, select_one]
    induction x using EReal.rec with
    | bot => exact absurd hx (by simp)
    | top => exact ⟨0, le_rfl, by simp⟩
    | coe r =>
      have hr : 0 < r := by exact_mod_cast hx
      refine ⟨(Real.sqrt r)⁻¹, inv_nonneg.mpr (Real.sqrt_nonneg r), ?_⟩
      rw [Ideal.rsqrt_coe, if_neg (not_lt.mpr hr.le), if_neg hr.ne']
  · have hc : Ideal.cmp .ogt x 0 = 0#1 := by simp [Ideal.cmp, hx]
    rw [hc, select_zero]
    exact ⟨0, le_rfl, by simp⟩

/-- A 32-bit word that reads, signed, as nonnegative is left alone by the wrap of negative indices. -/
theorem wrap_of_nonneg (v : BitVec 32) (h0 : 0 ≤ v.toInt) :
    Scalar.select (IntOp.cmpi .slt v 0#32) (IntOp.addi v 100000#32) v = v := by
  have hs : v.slt 0#32 = false := by
    unfold BitVec.slt
    simp
    exact h0
  have hc : IntOp.cmpi .slt v 0#32 = 0#1 := by
    show BitVec.ofBool (v.slt 0#32) = 0#1
    rw [hs]; rfl
  rw [hc, select_zero]

/-! ## A plain matrix product at an index -/

/-- With no batch axis and one non-contracting axis on the left, that axis reads the result index's first coordinate. -/
theorem lhsIdx_val_of_single_non {sl sr so : Shape} (d : DotDims sl sr so) {a : Fin sl.rank}
    (hb : d.lhsBatch = []) (hn : d.lhsNonContracting = [a]) (j : so.Idx) (k : d.contr.Idx) (h0 : 0 < so.rank) :
    (d.lhsIdx j k a).val = (j ⟨0, h0⟩).val := by
  have hmem : a ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one non-contracting axis on the left and one on the right, the right one reads the result
    index's second coordinate. -/
theorem rhsIdx_val_of_single_non {sl sr so : Shape} (d : DotDims sl sr so) {al : Fin sl.rank} {a : Fin sr.rank}
    (hlb : d.lhsBatch = []) (hrb : d.rhsBatch = []) (hln : d.lhsNonContracting = [al]) (hn : d.rhsNonContracting = [a])
    (j : so.Idx) (k : d.contr.Idx) (h1 : 1 < so.rank) :
    (d.rhsIdx j k a).val = (j ⟨1, h1⟩).val := by
  have hmem : a ∈ d.rhsNonContracting := by rw [hn]; exact List.mem_singleton.mpr rfl
  unfold DotDims.rhsIdx
  rw [dif_neg (by rw [hrb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- A plain matrix product [n, kk] x [kk, p] on the host, at the exact values, read at (i, j): the sum over the
    contracted coordinate k of lhs (i, k) * rhs (k, j). -/
theorem dotGeneral_plain_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    Host.dotGeneral (F := Ideal) d prec lhs rhs (ix2 i j) = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  simp only [Host.dotGeneral]
  rw [Ideal.dotGeneral_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.LibColumn.lean ====
/-
  Two layout operations read at an index written by coordinates, for the COLUMN shape `[a, 1]`: the shape a
  reduction along the last axis of an `[a, b]` matrix passes through when its result is set back beside the matrix
  (a row statistic kept as a column and repeated along the row).
  • a vector `[a]` viewed as the column `[a, 1]` reads, at `(i, u)`, the vector at `i`;
  • a column `[a, 1]` repeated along its unit axis to `[a, b]` reads, at `(i, j)`, the column at `(i, 0)`.
  Both are the general "read at an index" lemmas of a shape cast and of a broadcast with the row-major position,
  respectively the per-axis coordinates, worked out at these two ranks.
-/
import Idealize.ShloMosaic.Lib.Pipeline.Value
import Idealize.ShloMosaic.Lib.ValueIdx

namespace Cert.Column

open Idealize.ShloMosaic Idealize.ShloMosaic.ValueIdx

variable {α : Type}

/-- An `[a]` vector cast to the column `[a, 1]` reads, at `(i, u)`, the vector at `i`, whatever the unit
    coordinate `u`: the row-major position of `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along its unit axis to `[a, b]` reads, at `(i, j)`, the column's entry of row `i`:
    on the first axis the coordinate is kept (or is `0` anyway when `a = 1`), on the unit axis it is `0`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Column
-- ==== Proof.Bridge.lean ====
/-
  The two programs meet. Both aggregate rows over the same edge list: a gather of rows at the (wrapped, clamped) source
  nodes followed by a scatter-add at the destination nodes. The reference scales every gathered row by the per-edge
  coefficient  dinv[src] · dinv[dst];  the kernel program scales the rows by  dinv  before the gather and the sums by
  dinv  after the scatter. An edge contributes to node n exactly when its destination, read as a signed number, is n;
  its wrapped and clamped destination is then n as well, so the coefficient's second factor is  dinv[n],  the same for
  every contributing edge. It is a nonnegative real (an inverse square root of a positive degree, or zero), and
  multiplication by a nonnegative real distributes over sums of extended reals: the factor leaves the sum.
-/
import proofs.«151461_j37177236914410_2_alg».proof.Proof.KernelHost
import proofs.«151461_j37177236914410_2_alg».proof.Proof.RefValue
import proofs.«151461_j37177236914410_2_alg».proof.Proof.LibRowGatherScatter
import proofs.«151461_j37177236914410_2_alg».proof.Proof.LibLayoutReads
import proofs.«151461_j37177236914410_2_alg».proof.Proof.LibColumn

set_option maxRecDepth 16384

noncomputable section
namespace Cert.Proof.Bridge
open Idealize.ShloMosaic Idealize.ShloMosaic.ValueIdx Idealize.ShloMosaic.RowTake Idealize.ShloMosaic.LayoutReads

/-- The edge array's type. -/
abbrev Edges := (⟨Cert.KernelIdeal.S2x1600000, .i32⟩ : BufTy).Contents (Elt Ideal)

/-- The conditions on the dimension numbers, read off the printed records. -/
abbrev wfg64 := Cert.ReferenceIdeal.gather_S100000x64_S1700000x1_S1700000x64_1_0_n_n_0_1_164.wf
abbrev wfg32 := Cert.ReferenceIdeal.gather_S100000x32_S1700000x1_S1700000x32_1_0_n_n_0_1_132.wf
abbrev wfv := Cert.ReferenceIdeal.gather_S100000_S1700000x1_S1700000_n_0_n_n_0_1_1.wf
abbrev wfs64 := Cert.ReferenceIdeal.scatter_S100000x64_S1700000x1_S1700000x64_1_0_0_1.wf
abbrev wfs32 := Cert.ReferenceIdeal.scatter_S100000x32_S1700000x1_S1700000x32_1_0_0_1.wf

variable (a1 : Edges)

/-- dinv: the inverse square root of the in-degree, zero where the degree is not positive. -/
abbrev D : (⟨1, ![100000]⟩ : Shape).Idx → EReal := Cert.KernelIdeal.HostValue.dinv (F := Ideal) a1
/-- The source nodes, wrapped, as start indices. -/
abbrev sN : IVec ⟨2, ![1700000, 1]⟩ 32 := Cert.KernelIdeal.HostValue.col (F := Ideal) (Cert.KernelIdeal.HostValue.wrapIdx (F := Ideal) (Cert.KernelIdeal.HostValue.srcRaw (F := Ideal) a1))
/-- The destination nodes as scatter indices (not wrapped). -/
abbrev dR : IVec ⟨2, ![1700000, 1]⟩ 32 := Cert.KernelIdeal.HostValue.col (F := Ideal) (Cert.KernelIdeal.HostValue.dstRaw (F := Ideal) a1)
/-- The destination nodes, wrapped, as start indices. -/
abbrev dN : IVec ⟨2, ![1700000, 1]⟩ 32 := Cert.KernelIdeal.HostValue.col (F := Ideal) (Cert.KernelIdeal.HostValue.wrapIdx (F := Ideal) (Cert.KernelIdeal.HostValue.dstRaw (F := Ideal) a1))

/-! ## The reference's pieces are the same functions of the edge array -/

theorem ref_dinv : Cert.ReferenceIdeal.RefValue.dinv (F := Ideal) a1 = D a1 := rfl
theorem ref_sN : Cert.ReferenceIdeal.RefValue.col (F := Ideal) (Cert.ReferenceIdeal.RefValue.wrapIdx (F := Ideal) (Cert.ReferenceIdeal.RefValue.srcRaw (F := Ideal) a1)) = sN a1 := rfl
theorem ref_dR : Cert.ReferenceIdeal.RefValue.col (F := Ideal) (Cert.ReferenceIdeal.RefValue.dstRaw (F := Ideal) a1) = dR a1 := rfl
theorem ref_dN : Cert.ReferenceIdeal.RefValue.col (F := Ideal) (Cert.ReferenceIdeal.RefValue.wrapIdx (F := Ideal) (Cert.ReferenceIdeal.RefValue.dstRaw (F := Ideal) a1)) = dN a1 := rfl

/-! ## dinv is a nonnegative real; a destination in range is its own wrapping -/

/-- The `where` of the degree's sign, on one extended real. -/
theorem dinv_entry (x : EReal) (z : EReal) (hz : z = 0) :
    Scalar.select (FloatOps.cmpf (F := Ideal) (φ := .f32) .ogt x z) (FloatOps.hostUnary (F := Ideal) (φ := .f32) .rsqrt x) z
      = Scalar.select (Ideal.cmp .ogt x 0) (Ideal.rsqrt x) 0 := by
  subst hz; rfl

theorem hostRsqrt_apply {s : Shape} (x : FVec Ideal s .f32) (i : s.Idx) :
    Host.rsqrt x i = FloatOps.hostUnary (F := Ideal) (φ := .f32) .rsqrt (x i) := rfl

theorem D_nonneg (n : Fin 100000) : ∃ r : ℝ, 0 ≤ r ∧ D a1 (ix1 n) = (r : EReal) := by
  have e : D a1 (ix1 n) = Scalar.select (FloatOps.cmpf (F := Ideal) (φ := .f32) .ogt (Cert.KernelIdeal.HostValue.deg (F := Ideal) a1 (ix1 n)) (Ideal.ofBits .f32 0x00000000#32))
      (FloatOps.hostUnary (F := Ideal) (φ := .f32) .rsqrt (Cert.KernelIdeal.HostValue.deg (F := Ideal) a1 (ix1 n))) (Ideal.ofBits .f32 0x00000000#32) := by
    unfold D Cert.KernelIdeal.HostValue.dinv
    rw [ValueIdx.select_apply, ValueIdx.cmpf_apply, bcast_scalar_apply, bcast_scalar_apply, hostRsqrt_apply, id_eq,
      ValueIdx.constant_apply]
  rw [e]
  generalize Cert.KernelIdeal.HostValue.deg (F := Ideal) a1 (ix1 n) = x
  rw [dinv_entry x _ Ideal.ofBits_zero_f32]
  exact dinv_nonneg_real x

theorem dN_eq (e : Fin 1700000) (h0 : 0 ≤ (dR a1 (ix2 e (0 : Fin 1))).toInt)
    (h1 : (dR a1 (ix2 e (0 : Fin 1))).toInt < ((100000 : ℕ) : Int)) : dN a1 (ix2 e (0 : Fin 1)) = dR a1 (ix2 e (0 : Fin 1)) := by
  have hr : dR a1 (ix2 e (0 : Fin 1)) = Cert.KernelIdeal.HostValue.dstRaw (F := Ideal) a1 (ix1 e) :=
    bcast_vec_col_apply _ _ e 0
  have hn : dN a1 (ix2 e (0 : Fin 1)) = Cert.KernelIdeal.HostValue.wrapIdx (F := Ideal) (Cert.KernelIdeal.HostValue.dstRaw (F := Ideal) a1) (ix1 e) :=
    bcast_vec_col_apply _ _ e 0
  rw [hn, hr]
  rw [hr] at h0
  exact wrap_of_nonneg _ h0

/-! ## The printed dimension numbers are the row gather, the vector gather and the row scatter -/

theorem g64R_eq : Cert.ReferenceIdeal.gather_S100000x64_S1700000x1_S1700000x64_1_0_n_n_0_1_164 = rowGather 100000 1700000 64 wfg64 := rfl
theorem g32R_eq : Cert.ReferenceIdeal.gather_S100000x32_S1700000x1_S1700000x32_1_0_n_n_0_1_132 = rowGather 100000 1700000 32 wfg32 := rfl
theorem gvR_eq : Cert.ReferenceIdeal.gather_S100000_S1700000x1_S1700000_n_0_n_n_0_1_1 = vecGather 100000 1700000 wfv := rfl
theorem g64K_eq : Cert.KernelIdeal.gather_S100000x64_S1700000x1_S1700000x64_1_0_n_n_0_1_164 = rowGather 100000 1700000 64 wfg64 := rfl
theorem g32K_eq : Cert.KernelIdeal.gather_S100000x32_S1700000x1_S1700000x32_1_0_n_n_0_1_132 = rowGather 100000 1700000 32 wfg32 := rfl
theorem s64R_eq : Cert.ReferenceIdeal.scatter_S100000x64_S1700000x1_S1700000x64_1_0_0_1 = rowScatter 100000 1700000 64 wfs64 := rfl
theorem s32R_eq : Cert.ReferenceIdeal.scatter_S100000x32_S1700000x1_S1700000x32_1_0_0_1 = rowScatter 100000 1700000 32 wfs32 := rfl
theorem s64K_eq : Cert.KernelIdeal.scatter_S100000x64_S1700000x1_S1700000x64_1_0_0_1 = rowScatter 100000 1700000 64 wfs64 := rfl
theorem s32K_eq : Cert.KernelIdeal.scatter_S100000x32_S1700000x1_S1700000x32_1_0_0_1 = rowScatter 100000 1700000 32 wfs32 := rfl

/-- At the ideal instance the accumulating scatter is the exact sum. -/
theorem scatterAdd_ideal {s si u : Shape} {w : Nat} (d : ScatterDims s si u) (x : FVec Ideal s .f32) (idx : IVec si w) (upd : FVec Ideal u .f32) :
    Host.scatterAdd (F := Ideal) d x idx upd = Ideal.hostScatterAdd d x idx upd := rfl

/-- The zero arrays the sums start from. -/
abbrev Z64 : (⟨2, ![100000, 64]⟩ : Shape).Idx → EReal :=
  broadcastInDim Cert.ReferenceIdeal.S100000x64 ![] Cert.ReferenceIdeal.Gen.bcast_S_S100000x64 (constant (F := Ideal) Cert.ReferenceIdeal.S_ .f32 0x00000000#32)
abbrev Z32 : (⟨2, ![100000, 32]⟩ : Shape).Idx → EReal :=
  broadcastInDim Cert.ReferenceIdeal.S100000x32 ![] Cert.ReferenceIdeal.Gen.bcast_S_S100000x32 (constant (F := Ideal) Cert.ReferenceIdeal.S_ .f32 0x00000000#32)
theorem zero64K : broadcastInDim Cert.KernelIdeal.S100000x64 ![] Cert.KernelIdeal.Gen.bcast_S_S100000x64 (constant (F := Ideal) Cert.KernelIdeal.S_ .f32 0x00000000#32) = Z64 := rfl
theorem zero32K : broadcastInDim Cert.KernelIdeal.S100000x32 ![] Cert.KernelIdeal.Gen.bcast_S_S100000x32 (constant (F := Ideal) Cert.KernelIdeal.S_ .f32 0x00000000#32) = Z32 := rfl
theorem Z64_zero (i : (⟨2, ![100000, 64]⟩ : Shape).Idx) : Z64 i = 0 := by
  unfold Z64; rw [bcast_scalar_apply, ValueIdx.constant_apply, Ideal.ofBits_zero_f32]
theorem Z32_zero (i : (⟨2, ![100000, 32]⟩ : Shape).Idx) : Z32 i = 0 := by
  unfold Z32; rw [bcast_scalar_apply, ValueIdx.constant_apply, Ideal.ofBits_zero_f32]

/-! ## The reference's messages, entry by entry -/

theorem msg64_apply (H : (⟨2, ![100000, 64]⟩ : Shape).Idx → EReal) (e : Fin 1700000) (f : Fin 64) :
    Cert.ReferenceIdeal.RefValue.msg64 (F := Ideal) a1 H (ix2 e f) = Host.gather (rowGather 100000 1700000 64 wfg64) H (sN a1) (ix2 e f)
      * (Host.gather (vecGather 100000 1700000 wfv) (D a1) (sN a1) (ix1 e) * Host.gather (vecGather 100000 1700000 wfv) (D a1) (dN a1) (ix1 e)) := by
  unfold Cert.ReferenceIdeal.RefValue.msg64
  rw [ValueIdx.mulf_apply, bcast_col_apply, bcast_vec_col_apply]
  unfold Cert.ReferenceIdeal.RefValue.coef
  rw [ValueIdx.mulf_apply, ref_sN, ref_dN, ref_dinv, g64R_eq, gvR_eq]

theorem msg32_apply (H : (⟨2, ![100000, 32]⟩ : Shape).Idx → EReal) (e : Fin 1700000) (f : Fin 32) :
    Cert.ReferenceIdeal.RefValue.msg32 (F := Ideal) a1 H (ix2 e f) = Host.gather (rowGather 100000 1700000 32 wfg32) H (sN a1) (ix2 e f)
      * (Host.gather (vecGather 100000 1700000 wfv) (D a1) (sN a1) (ix1 e) * Host.gather (vecGather 100000 1700000 wfv) (D a1) (dN a1) (ix1 e)) := by
  unfold Cert.ReferenceIdeal.RefValue.msg32
  rw [ValueIdx.mulf_apply, bcast_col_apply, bcast_vec_col_apply]
  unfold Cert.ReferenceIdeal.RefValue.coef
  rw [ValueIdx.mulf_apply, ref_sN, ref_dN, ref_dinv, g32R_eq, gvR_eq]

/-! ## One layer: the reference's sum of scaled rows is dinv times the kernel program's sum of pre-scaled rows -/

theorem layer64 (H HD : (⟨2, ![100000, 64]⟩ : Shape).Idx → EReal)
    (hHD : ∀ (n : Fin 100000) (f : Fin 64), HD (ix2 n f) = H (ix2 n f) * D a1 (ix1 n)) (n : Fin 100000) (f : Fin 64) :
    Cert.ReferenceIdeal.RefValue.sum64 (F := Ideal) a1 (Cert.ReferenceIdeal.RefValue.msg64 (F := Ideal) a1 H) (ix2 n f) = D a1 (ix1 n) * Cert.KernelIdeal.HostValue.agg64 (F := Ideal) a1 HD (ix2 n f) := by
  unfold Cert.ReferenceIdeal.RefValue.sum64 Cert.KernelIdeal.HostValue.agg64
  rw [scatterAdd_ideal, scatterAdd_ideal, ref_dR, s64R_eq, s64K_eq, g64K_eq, zero64K]
  exact rowScatter_norm_factor (N := 100000) (E := 1700000) (Fw := 64) (by norm_num) wfg64 wfv wfs64 H HD Z64 (D a1) (D_nonneg a1)
    Z64_zero hHD (sN a1) (dR a1) (dN a1) (dN_eq a1) (Cert.ReferenceIdeal.RefValue.msg64 (F := Ideal) a1 H) (msg64_apply a1 H) n f

theorem layer32 (H HD : (⟨2, ![100000, 32]⟩ : Shape).Idx → EReal)
    (hHD : ∀ (n : Fin 100000) (f : Fin 32), HD (ix2 n f) = H (ix2 n f) * D a1 (ix1 n)) (n : Fin 100000) (f : Fin 32) :
    Cert.ReferenceIdeal.RefValue.sum32 (F := Ideal) a1 (Cert.ReferenceIdeal.RefValue.msg32 (F := Ideal) a1 H) (ix2 n f) = D a1 (ix1 n) * Cert.KernelIdeal.HostValue.agg32 (F := Ideal) a1 HD (ix2 n f) := by
  unfold Cert.ReferenceIdeal.RefValue.sum32 Cert.KernelIdeal.HostValue.agg32
  rw [scatterAdd_ideal, scatterAdd_ideal, ref_dR, s32R_eq, s32K_eq, g32K_eq, zero32K]
  exact rowScatter_norm_factor (N := 100000) (E := 1700000) (Fw := 32) (by norm_num) wfg32 wfv wfs32 H HD Z32 (D a1) (D_nonneg a1)
    Z32_zero hHD (sN a1) (dR a1) (dN a1) (dN_eq a1) (Cert.ReferenceIdeal.RefValue.msg32 (F := Ideal) a1 H) (msg32_apply a1 H) n f

end Cert.Proof.Bridge
end
-- ==== Proof.Region0.lean ====
/- Region 0 of the two-layer graph convolution, read as ONE function of the arrays the region finds.

   The region tiles the 100000 rows of `x` into 20 blocks of 5000 rows; at each block it forms
   `(x_block · w) ⊙ d_block`, the column `d` repeated along the 64 output columns, and writes the result to
   the same rows of the output. Over the extended reals the format changes on the way into the product are
   the identity and the product into a zero accumulator is the plain sum of products, so entry `(n, f)` of
   the output is `(∑ k, x (n, k) * w (k, f)) * d (n, 0)`: `final0` (the whole array) and `final0_apply`
   (entry by entry). The steps: the body's arithmetic at a block index (`pay0_apply`); where each window's
   block sits in its array (`idx_facts0`, `iblk0_*_apply`); what a grid point writes back (`flushed0_eq`);
   the blocks cover the output (`cover0`). -/
import proofs.«151461_j37177236914410_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's arithmetic at a block index -/

/-- A column `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The block product `[5000, 128] · [128, 64]` into the zero accumulator, at `(p, q)`: the sum over the one
    contracted coordinate of the products of the entries `(p, k)` and `(k, q)`. -/
theorem matmul0_apply (A : FVec Ideal S5000x128 .bf16) (B : FVec Ideal S128x64 .bf16) (p : Fin 5000) (q : Fin 64) :
    matmul dot_S5000x128_S128x64_S5000x64_1_0_0_1_n_n none A B (constant (F := Ideal) S5000x64 .f32 0x00000000#32) (ix2 p q)
      = ∑ k : Fin 128, A (ix2 p k) * B (ix2 k q) := by
  show FloatOps.matmul dot_S5000x128_S128x64_S5000x64_1_0_0_1_n_n none A B (constant (F := Ideal) S5000x64 .f32 0x00000000#32) (ix2 p q) = _
  rw [Ideal.matmul_constant_zero_apply,
    ← Equiv.sum_comp (contrEquiv1 dot_S5000x128_S128x64_S5000x64_1_0_0_1_n_n 128 rfl rfl).symm]
  refine Finset.sum_congr rfl fun k _ => ?_
  have c2 := contrEquiv1_symm_val dot_S5000x128_S128x64_S5000x64_1_0_0_1_n_n 128 rfl rfl k
  have l2 : dot_S5000x128_S128x64_S5000x64_1_0_0_1_n_n.lhsIdx (ix2 p q)
      ((contrEquiv1 dot_S5000x128_S128x64_S5000x64_1_0_0_1_n_n 128 rfl rfl).symm k) = ix2 p k := by
    funext ax; apply Fin.ext
    match ax with
    | ⟨0, _⟩ => simp [DotDims.lhsIdx, dot_S5000x128_S128x64_S5000x64_1_0_0_1_n_n]; rfl
    | ⟨1, _⟩ => exact (DotDims.lhsIdx_val_of_single _ (cl := (1 : Fin 2)) rfl _ _).trans c2
  have r2 : dot_S5000x128_S128x64_S5000x64_1_0_0_1_n_n.rhsIdx (ix2 p q)
      ((contrEquiv1 dot_S5000x128_S128x64_S5000x64_1_0_0_1_n_n 128 rfl rfl).symm k) = ix2 k q := by
    funext ax; apply Fin.ext
    match ax with
    | ⟨0, _⟩ => exact (DotDims.rhsIdx_val_of_single _ (cr := (0 : Fin 2)) rfl _ _).trans c2
    | ⟨1, _⟩ => simp [DotDims.rhsIdx, dot_S5000x128_S128x64_S5000x64_1_0_0_1_n_n]; rfl
  rw [l2, r2]

/-- What the body stores, at block index `(p, q)`, from the three blocks it loads: the row of `x0` against the
    column of `x1`, times the entry of the column `x2` on that row. -/
theorem pay0_apply (x0 : Vec Ideal S5000x128 .f32) (x1 : Vec Ideal S128x64 .f32) (x2 : Vec Ideal S5000x1 .f32)
    (p : Fin 5000) (q : Fin 64) :
    (k0_pay1 x0 x1 x2 : S5000x64.Idx → EReal) (ix2 p q)
      = (∑ k : Fin 128, (x0 : S5000x128.Idx → EReal) (ix2 p k) * (x1 : S128x64.Idx → EReal) (ix2 k q))
          * (x2 : S5000x1.Idx → EReal) (ix2 p (0 : Fin 1)) := by
  unfold k0_pay1
  refine (mulf_apply _ _ _).trans ?_
  rw [matmul0_apply, broadcastTo_a1_ab_apply, shapeCast_self]
  rfl

/-! ## The arrays the region finds, and the first layer as one function of them -/

variable (V : (c : Dev nD) → (b : Ref sig .tc) → Buf (Elt Ideal) ((c : Thread nD τ).loc b))

/-- The region's three input arrays as it finds them, as extended-real functions of literal index types:
    `x` `[100000, 128]`, `w` `[128, 64]` and the column `d` `[100000, 1]`. -/
abbrev ent0_0 (c : Dev nD) : S100000x128.Idx → EReal := V c (Pipeline.arrRef spec0 0)
abbrev ent0_1 (c : Dev nD) : S128x64.Idx → EReal := V c (Pipeline.arrRef spec0 1)
abbrev ent0_2 (c : Dev nD) : S100000x1.Idx → EReal := V c (Pipeline.arrRef spec0 2)

/-- The first layer: `x · w`, each row scaled by that row's entry of the column `d`. -/
def layer1 (x : S100000x128.Idx → EReal) (w : S128x64.Idx → EReal) (d : S100000x1.Idx → EReal) :
    S100000x64.Idx → EReal :=
  fun i => (∑ k : Fin 128, x (ix2 (⟨(i 0).val, idx2_lt0 i⟩ : Fin 100000) k) * w (ix2 k (⟨(i 1).val, idx2_lt1 i⟩ : Fin 64)))
    * d (ix2 (⟨(i 0).val, idx2_lt0 i⟩ : Fin 100000) (0 : Fin 1))

theorem layer1_apply (x : S100000x128.Idx → EReal) (w : S128x64.Idx → EReal) (d : S100000x1.Idx → EReal)
    (n : Fin 100000) (f : Fin 64) :
    layer1 x w d (ix2 n f) = (∑ k : Fin 128, x (ix2 n k) * w (ix2 k f)) * d (ix2 n (0 : Fin 1)) := rfl

/-! ## Where each window's block sits in its array -/

theorem zero_offsets : (![0, 0] : Fin 2 → Nat) = fun _ => 0 := funext fun a => by fin_cases a <;> rfl

/-- The index maps over the 20 grid points: the windows of `x`, of `d` and of the output sit at block row `t`,
    block column 0; the window of `w` at block (0, 0) throughout. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of `x` at point `t` is rows `5000 t, …, 5000 t + 4999` of `x`. -/
theorem iblk0_0_apply (c : Dev nD) (t : Fin cfg0.N) (p : Fin 5000) (k : Fin 128) (r : Fin 100000)
    (hr : r.val = t.val * 5000 + p.val) :
    (iblk0 V c 0 t : S5000x128.Idx → EReal) (ix2 p k) = ent0_0 V c (ix2 r k) := by
  obtain ⟨e0, e1, -⟩ := idx_facts0 t
  show V c (Pipeline.arrRef spec0 0) (((cfg0.win 0).blk t).view.emb (ix2 p k)) = V c (Pipeline.arrRef spec0 0) (ix2 r k)
  refine congrArg (V c (Pipeline.arrRef spec0 0)) ?_
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The block of `w` at every point is the whole of `w`. -/
theorem iblk0_1_apply (c : Dev nD) (t : Fin cfg0.N) (k : Fin 128) (q : Fin 64) :
    (iblk0 V c 1 t : S128x64.Idx → EReal) (ix2 k q) = ent0_1 V c (ix2 k q) := by
  obtain ⟨-, -, e2, e3, -⟩ := idx_facts0 t
  show V c (Pipeline.arrRef spec0 1) (((cfg0.win 1).blk t).view.emb (ix2 k q)) = V c (Pipeline.arrRef spec0 1) (ix2 k q)
  refine congrArg (V c (Pipeline.arrRef spec0 1)) ?_
  funext a; apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- The block of the column `d` at point `t` is its rows `5000 t, …, 5000 t + 4999`. -/
theorem iblk0_2_apply (c : Dev nD) (t : Fin cfg0.N) (p : Fin 5000) (r : Fin 100000)
    (hr : r.val = t.val * 5000 + p.val) :
    (iblk0 V c 2 t : S5000x1.Idx → EReal) (ix2 p (0 : Fin 1)) = ent0_2 V c (ix2 r (0 : Fin 1)) := by
  obtain ⟨-, -, -, -, e4, e5, -⟩ := idx_facts0 t
  show V c (Pipeline.arrRef spec0 2) (((cfg0.win 2).blk t).view.emb (ix2 p (0 : Fin 1))) = V c (Pipeline.arrRef spec0 2) (ix2 r (0 : Fin 1))
  refine congrArg (V c (Pipeline.arrRef spec0 2)) ?_
  funext a; apply Fin.ext
  match a with
  | ⟨0, _⟩ => show win0_2.index t (0 : Fin 2) * 5000 + 1 * p.val = r.val; rw [e4, hr]; omega
  | ⟨1, _⟩ => show win0_2.index t (1 : Fin 2) * 1 + 1 * 0 = 0; rw [e5]

/-- The body's arithmetic on the three blocks of point `t`, at block index `(p, q)`, is the first layer of the
    arrays at row `5000 t + p`, column `q`. -/
theorem pay0_blocks (c : Dev nD) (t : Fin cfg0.N) (p : Fin 5000) (q : Fin 64) (r : Fin 100000)
    (hr : r.val = t.val * 5000 + p.val) :
    (k0_pay1 (iblk0 V c 0 t) (iblk0 V c 1 t) (iblk0 V c 2 t) : S5000x64.Idx → EReal) (ix2 p q)
      = layer1 (ent0_0 V c) (ent0_1 V c) (ent0_2 V c) (ix2 r q) := by
  refine (pay0_apply (iblk0 V c 0 t) (iblk0 V c 1 t) (iblk0 V c 2 t) p q).trans ?_
  rw [layer1_apply, iblk0_2_apply V c t p r hr]
  refine congrArg (· * ent0_2 V c (ix2 r (0 : Fin 1))) (Finset.sum_congr rfl fun k _ => ?_)
  rw [iblk0_0_apply V c t p k r hr, iblk0_1_apply V c t k q]

/-! ## From the blocks to the array -/

/-- What point `t` writes back is block `t` of the first layer of the arrays the region finds. -/
theorem flushed0_eq (c : Dev nD) (t : Fin cfg0.N) :
    (dat0 V c).flushed 3 t
      = ((cfg0.win 3).blk t).view.read (Elt Ideal) (layer1 (ent0_0 V c) (ent0_1 V c) (ent0_2 V c)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S5000x1) zero_offsets]
  obtain ⟨-, -, -, -, -, -, e6, e7⟩ := idx_facts0 t
  funext j
  show (k0_pay1 (iblk0 V c 0 t) (iblk0 V c 1 t) (iblk0 V c 2 t) : S5000x64.Idx → EReal) j
    = layer1 (ent0_0 V c) (ent0_1 V c) (ent0_2 V c) (((cfg0.win 3).blk t).view.emb j)
  have ht : t.val < 20 := t.isLt
  have hj0 : (j 0).val < 5000 := (j 0).isLt
  have hj1 : (j 1).val < 64 := (j 1).isLt
  have hr : t.val * 5000 + (j 0).val < 100000 := by omega
  have hjx : j = ix2 (⟨(j 0).val, hj0⟩ : Fin 5000) (⟨(j 1).val, hj1⟩ : Fin 64) := by
    funext a; match a with | ⟨0, _⟩ => rfl | ⟨1, _⟩ => rfl
  have hemb : ((cfg0.win 3).blk t).view.emb j
      = ix2 (⟨t.val * 5000 + (j 0).val, hr⟩ : Fin 100000) (⟨(j 1).val, hj1⟩ : Fin 64) := by
    funext a; apply Fin.ext
    match a with
    | ⟨0, _⟩ => show win0_3.index t (0 : Fin 2) * 5000 + 1 * (j 0).val = t.val * 5000 + (j 0).val; rw [e6]; omega
    | ⟨1, _⟩ => show win0_3.index t (1 : Fin 2) * 64 + 1 * (j 1).val = (j 1).val; rw [e7]; omega
  refine (congrArg (k0_pay1 (iblk0 V c 0 t) (iblk0 V c 1 t) (iblk0 V c 2 t) : S5000x64.Idx → EReal) hjx).trans ?_
  rw [hemb]
  exact pay0_blocks V c t ⟨(j 0).val, hj0⟩ ⟨(j 1).val, hj1⟩ ⟨t.val * 5000 + (j 0).val, hr⟩ rfl

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- The 20 blocks of 5000 rows cover the output: row `r` is in the block of point `r / 5000`. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have htl : (i 0).val / 5000 < 20 := by omega
  obtain ⟨-, -, -, -, -, -, e6, e7⟩ := idx_facts0 (⟨(i 0).val / 5000, htl⟩ : Fin cfg0.N)
  refine ⟨⟨(i 0).val / 5000, htl⟩, flush0_3 _, ?_⟩
  rw [mem_blk0]
  intro a
  match a with
  | ⟨0, _⟩ =>
    show win0_3.index ⟨(i 0).val / 5000, htl⟩ (0 : Fin 2) * 5000 ≤ (i 0).val
      ∧ (i 0).val < win0_3.index ⟨(i 0).val / 5000, htl⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, htl⟩ (1 : Fin 2) * 64 ≤ (i 1).val
      ∧ (i 1).val < win0_3.index ⟨(i 0).val / 5000, htl⟩ (1 : Fin 2) * 64 + 64
    rw [e7]; omega

/-- THE OUTPUT ARRAY after the region is the first layer of the arrays the region finds. -/
theorem final0 (c : Dev nD) :
    (dat0 V c).arrAt 3 cfg0.N = layer1 (ent0_0 V c) (ent0_1 V c) (ent0_2 V c) :=
  (dat0 V c).arrAt_eq_of_cover 3 (layer1 (ent0_0 V c) (ent0_1 V c) (ent0_2 V c))
    (fun t _ => flushed0_eq V c t) cover0

/-- Entry `(n, f)` of the output array after the region. -/
theorem final0_apply (c : Dev nD) (n : Fin 100000) (f : Fin 64) :
    ((Gen.dat0 (F := Ideal) V c).arrAt 3 cfg0.N : S100000x64.Idx → EReal) (ix2 n f)
      = (∑ k : Fin 128, ent0_0 V c (ix2 n k) * ent0_1 V c (ix2 k f)) * ent0_2 V c (ix2 n (0 : Fin 1)) := by
  rw [final0]; rfl

/-- The same with the three arrays named by the caller. -/
theorem final0_apply_of (c : Dev nD) (x : S100000x128.Idx → EReal) (w : S128x64.Idx → EReal)
    (d : S100000x1.Idx → EReal) (hx : ent0_0 V c = x) (hw : ent0_1 V c = w) (hd : ent0_2 V c = d)
    (n : Fin 100000) (f : Fin 64) :
    ((Gen.dat0 (F := Ideal) V c).arrAt 3 cfg0.N : S100000x64.Idx → EReal) (ix2 n f)
      = (∑ k : Fin 128, x (ix2 n k) * w (ix2 k f)) * d (ix2 n (0 : Fin 1)) := by
  subst hx hw hd
  exact final0_apply V c n f

end Cert.KernelIdeal.RegionValue

end
-- ==== Proof.Region1.lean ====
/- Region 1 of the two-layer graph convolution, read as ONE function of the arrays the region finds.

   The region tiles the 100000 rows of the aggregate into 20 blocks of 5000 rows; at each block it forms the hidden
   activation `h = max (a_block ⊙ d_block + b, 0)` (the column `d` repeated along the 64 columns, the bias row `b`
   repeated along the rows), then `(h · w) ⊙ d_block`, and writes the result to the same rows of the output. Over
   the extended reals the format changes on the way into the product are the identity and the product into a zero
   accumulator is the plain sum of products, so entry `(n, f)` of the output is
   `(∑ k, max (a (n, k) * d (n, 0) + b (0, k)) 0 * w (k, f)) * d (n, 0)`: `final1` (the whole array) and
   `final1_apply` (entry by entry). The steps are those of region 0: the body's arithmetic at a block index
   (`pay1_apply`); where each window's block sits in its array (`idx_facts1`, `iblk1_*_apply`); what a grid point
   writes back (`flushed1_eq`); the blocks cover the output (`cover1`). The column broadcast read at an index and
   the zero offsets of a whole-buffer access are region 0's. -/
import proofs.«151461_j37177236914410_2_alg».proof.Proof.Gen.KernelIdeal.Frame
import proofs.«151461_j37177236914410_2_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's arithmetic at a block index -/

/-- The block product `[5000, 64] · [64, 32]` into the zero accumulator, at `(p, q)`: the sum over the one
    contracted coordinate of the products of the entries `(p, k)` and `(k, q)`. -/
theorem matmul1_apply (A : FVec Ideal S5000x64 .bf16) (B : FVec Ideal S64x32 .bf16) (p : Fin 5000) (q : Fin 32) :
    matmul dot_S5000x64_S64x32_S5000x32_1_0_0_1_n_n none A B (constant (F := Ideal) S5000x32 .f32 0x00000000#32) (ix2 p q)
      = ∑ k : Fin 64, A (ix2 p k) * B (ix2 k q) := by
  show FloatOps.matmul dot_S5000x64_S64x32_S5000x32_1_0_0_1_n_n none A B (constant (F := Ideal) S5000x32 .f32 0x00000000#32) (ix2 p q) = _
  rw [Ideal.matmul_constant_zero_apply,
    ← Equiv.sum_comp (contrEquiv1 dot_S5000x64_S64x32_S5000x32_1_0_0_1_n_n 64 rfl rfl).symm]
  refine Finset.sum_congr rfl fun k _ => ?_
  have c2 := contrEquiv1_symm_val dot_S5000x64_S64x32_S5000x32_1_0_0_1_n_n 64 rfl rfl k
  have l2 : dot_S5000x64_S64x32_S5000x32_1_0_0_1_n_n.lhsIdx (ix2 p q)
      ((contrEquiv1 dot_S5000x64_S64x32_S5000x32_1_0_0_1_n_n 64 rfl rfl).symm k) = ix2 p k := by
    funext ax; apply Fin.ext
    match ax with
    | ⟨0, _⟩ => simp [DotDims.lhsIdx, dot_S5000x64_S64x32_S5000x32_1_0_0_1_n_n]; rfl
    | ⟨1, _⟩ => exact (DotDims.lhsIdx_val_of_single _ (cl := (1 : Fin 2)) rfl _ _).trans c2
  have r2 : dot_S5000x64_S64x32_S5000x32_1_0_0_1_n_n.rhsIdx (ix2 p q)
      ((contrEquiv1 dot_S5000x64_S64x32_S5000x32_1_0_0_1_n_n 64 rfl rfl).symm k) = ix2 k q := by
    funext ax; apply Fin.ext
    match ax with
    | ⟨0, _⟩ => exact (DotDims.rhsIdx_val_of_single _ (cr := (0 : Fin 2)) rfl _ _).trans c2
    | ⟨1, _⟩ => simp [DotDims.rhsIdx, dot_S5000x64_S64x32_S5000x32_1_0_0_1_n_n]; rfl
  rw [l2, r2]

/-- The hidden activation at block index `(p, k)`: the aggregate's entry scaled by the row's entry of the column,
    plus the bias of column `k`, cut below at zero. -/
theorem hidden1_apply (x0 : Vec Ideal S5000x64 .f32) (x1 : Vec Ideal S5000x1 .f32) (x2 : Vec Ideal S1x64 .f32)
    (p : Fin 5000) (k : Fin 64) :
    (maximumf (addf (mulf x0 (broadcastTo S5000x64 x1 broadcasts_S5000x1_S5000x64))
        (broadcastTo S5000x64 x2 broadcasts_S1x64_S5000x64))
      (broadcast S5000x64 (Scalar.ofBits (F := Ideal) .f32 0x00000000#32)) : S5000x64.Idx → EReal) (ix2 p k)
      = max ((x0 : S5000x64.Idx → EReal) (ix2 p k) * (x1 : S5000x1.Idx → EReal) (ix2 p (0 : Fin 1))
          + (x2 : S1x64.Idx → EReal) (ix2 (0 : Fin 1) k)) 0 := by
  refine (maximumf_apply _ _ _).trans ?_
  rw [addf_apply, mulf_apply, broadcastTo_a1_ab_apply, broadcastTo_1b_ab_apply, broadcast_apply]
  exact congrArg (max _) Ideal.ofBits_zero_f32

/-- What the body stores, at block index `(p, q)`, from the four blocks it loads: the hidden row against the column
    of `x3`, times the entry of the column `x1` on that row. -/
theorem pay1_apply (x0 : Vec Ideal S5000x64 .f32) (x1 : Vec Ideal S5000x1 .f32) (x2 : Vec Ideal S1x64 .f32)
    (x3 : Vec Ideal S64x32 .f32) (p : Fin 5000) (q : Fin 32) :
    (k1_pay1 x0 x1 x2 x3 : S5000x32.Idx → EReal) (ix2 p q)
      = (∑ k : Fin 64, max ((x0 : S5000x64.Idx → EReal) (ix2 p k) * (x1 : S5000x1.Idx → EReal) (ix2 p (0 : Fin 1))
            + (x2 : S1x64.Idx → EReal) (ix2 (0 : Fin 1) k)) 0 * (x3 : S64x32.Idx → EReal) (ix2 k q))
          * (x1 : S5000x1.Idx → EReal) (ix2 p (0 : Fin 1)) := by
  unfold k1_pay1
  simp only [shapeCast_self]
  refine (mulf_apply _ _ _).trans ?_
  rw [matmul1_apply, broadcastTo_a1_ab_apply]
  refine congrArg (· * (x1 : S5000x1.Idx → EReal) (ix2 p (0 : Fin 1))) (Finset.sum_congr rfl fun k _ => ?_)
  refine congrArg (· * (x3 : S64x32.Idx → EReal) (ix2 k q)) ?_
  exact hidden1_apply x0 x1 x2 p k

/-! ## The arrays the region finds, and the second layer as one function of them -/

variable (V : (c : Dev nD) → (b : Ref sig .tc) → Buf (Elt Ideal) ((c : Thread nD τ).loc b))

/-- The region's four input arrays as it finds them, as extended-real functions of literal index types: the
    aggregate `[100000, 64]`, the column `d` `[100000, 1]`, the bias row `[1, 64]` and `w` `[64, 32]`. -/
abbrev ent1_0 (c : Dev nD) : S100000x64.Idx → EReal := V c (Pipeline.arrRef spec1 0)
abbrev ent1_1 (c : Dev nD) : S100000x1.Idx → EReal := V c (Pipeline.arrRef spec1 1)
abbrev ent1_2 (c : Dev nD) : S1x64.Idx → EReal := V c (Pipeline.arrRef spec1 2)
abbrev ent1_3 (c : Dev nD) : S64x32.Idx → EReal := V c (Pipeline.arrRef spec1 3)

/-- The second layer: the hidden activation `max (a ⊙ d + b, 0)` times `w`, each row scaled by that row's entry of the
    column `d`. -/
def layer2 (a : S100000x64.Idx → EReal) (d : S100000x1.Idx → EReal) (b : S1x64.Idx → EReal) (w : S64x32.Idx → EReal) :
    S100000x32.Idx → EReal :=
  fun i => (∑ k : Fin 64, max (a (ix2 (⟨(i 0).val, idx2_lt0 i⟩ : Fin 100000) k)
        * d (ix2 (⟨(i 0).val, idx2_lt0 i⟩ : Fin 100000) (0 : Fin 1)) + b (ix2 (0 : Fin 1) k)) 0
      * w (ix2 k (⟨(i 1).val, idx2_lt1 i⟩ : Fin 32)))
    * d (ix2 (⟨(i 0).val, idx2_lt0 i⟩ : Fin 100000) (0 : Fin 1))

theorem layer2_apply (a : S100000x64.Idx → EReal) (d : S100000x1.Idx → EReal) (b : S1x64.Idx → EReal)
    (w : S64x32.Idx → EReal) (n : Fin 100000) (f : Fin 32) :
    layer2 a d b w (ix2 n f)
      = (∑ k : Fin 64, max (a (ix2 n k) * d (ix2 n (0 : Fin 1)) + b (ix2 (0 : Fin 1) k)) 0 * w (ix2 k f))
          * d (ix2 n (0 : Fin 1)) := rfl

/-! ## Where each window's block sits in its array -/

/-- The index maps over the 20 grid points: the windows of the aggregate, of `d` and of the output sit at block
    row `t`, block column 0; the windows of the bias row and of `w` at block (0, 0) throughout. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of the aggregate at point `t` is its rows `5000 t, …, 5000 t + 4999`. -/
theorem iblk1_0_apply (c : Dev nD) (t : Fin cfg1.N) (p : Fin 5000) (k : Fin 64) (r : Fin 100000)
    (hr : r.val = t.val * 5000 + p.val) :
    (iblk1 V c 0 t : S5000x64.Idx → EReal) (ix2 p k) = ent1_0 V c (ix2 r k) := by
  obtain ⟨e0, e1, -⟩ := idx_facts1 t
  show V c (Pipeline.arrRef spec1 0) (((cfg1.win 0).blk t).view.emb (ix2 p k)) = V c (Pipeline.arrRef spec1 0) (ix2 r k)
  refine congrArg (V c (Pipeline.arrRef spec1 0)) ?_
  funext a; apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The block of the column `d` at point `t` is its rows `5000 t, …, 5000 t + 4999`. -/
theorem iblk1_1_apply (c : Dev nD) (t : Fin cfg1.N) (p : Fin 5000) (r : Fin 100000)
    (hr : r.val = t.val * 5000 + p.val) :
    (iblk1 V c 1 t : S5000x1.Idx → EReal) (ix2 p (0 : Fin 1)) = ent1_1 V c (ix2 r (0 : Fin 1)) := by
  obtain ⟨-, -, e2, e3, -⟩ := idx_facts1 t
  show V c (Pipeline.arrRef spec1 1) (((cfg1.win 1).blk t).view.emb (ix2 p (0 : Fin 1))) = V c (Pipeline.arrRef spec1 1) (ix2 r (0 : Fin 1))
  refine congrArg (V c (Pipeline.arrRef spec1 1)) ?_
  funext a; apply Fin.ext
  match a with
  | ⟨0, _⟩ => show win1_1.index t (0 : Fin 2) * 5000 + 1 * p.val = r.val; rw [e2, hr]; omega
  | ⟨1, _⟩ => show win1_1.index t (1 : Fin 2) * 1 + 1 * 0 = 0; rw [e3]

/-- The block of the bias row at every point is the whole row. -/
theorem iblk1_2_apply (c : Dev nD) (t : Fin cfg1.N) (k : Fin 64) :
    (iblk1 V c 2 t : S1x64.Idx → EReal) (ix2 (0 : Fin 1) k) = ent1_2 V c (ix2 (0 : Fin 1) k) := by
  obtain ⟨-, -, -, -, e4, e5, -⟩ := idx_facts1 t
  show V c (Pipeline.arrRef spec1 2) (((cfg1.win 2).blk t).view.emb (ix2 (0 : Fin 1) k)) = V c (Pipeline.arrRef spec1 2) (ix2 (0 : Fin 1) k)
  refine congrArg (V c (Pipeline.arrRef spec1 2)) ?_
  funext a; apply Fin.ext
  match a with
  | ⟨0, _⟩ => show win1_2.index t (0 : Fin 2) * 1 + 1 * 0 = 0; rw [e4]
  | ⟨1, _⟩ => show win1_2.index t (1 : Fin 2) * 64 + 1 * k.val = k.val; rw [e5]; omega

/-- The block of `w` at every point is the whole of `w`. -/
theorem iblk1_3_apply (c : Dev nD) (t : Fin cfg1.N) (k : Fin 64) (q : Fin 32) :
    (iblk1 V c 3 t : S64x32.Idx → EReal) (ix2 k q) = ent1_3 V c (ix2 k q) := by
  obtain ⟨-, -, -, -, -, -, e6, e7, -⟩ := idx_facts1 t
  show V c (Pipeline.arrRef spec1 3) (((cfg1.win 3).blk t).view.emb (ix2 k q)) = V c (Pipeline.arrRef spec1 3) (ix2 k q)
  refine congrArg (V c (Pipeline.arrRef spec1 3)) ?_
  funext a; apply Fin.ext
  match a with
  | ⟨0, _⟩ => show win1_3.index t (0 : Fin 2) * 64 + 1 * k.val = k.val; rw [e6]; omega
  | ⟨1, _⟩ => show win1_3.index t (1 : Fin 2) * 32 + 1 * q.val = q.val; rw [e7]; omega

/-- The body's arithmetic on the four blocks of point `t`, at block index `(p, q)`, is the second layer of the
    arrays at row `5000 t + p`, column `q`. -/
theorem pay1_blocks (c : Dev nD) (t : Fin cfg1.N) (p : Fin 5000) (q : Fin 32) (r : Fin 100000)
    (hr : r.val = t.val * 5000 + p.val) :
    (k1_pay1 (iblk1 V c 0 t) (iblk1 V c 1 t) (iblk1 V c 2 t) (iblk1 V c 3 t) : S5000x32.Idx → EReal) (ix2 p q)
      = layer2 (ent1_0 V c) (ent1_1 V c) (ent1_2 V c) (ent1_3 V c) (ix2 r q) := by
  refine (pay1_apply (iblk1 V c 0 t) (iblk1 V c 1 t) (iblk1 V c 2 t) (iblk1 V c 3 t) p q).trans ?_
  rw [layer2_apply, iblk1_1_apply V c t p r hr]
  refine congrArg (· * ent1_1 V c (ix2 r (0 : Fin 1))) (Finset.sum_congr rfl fun k _ => ?_)
  rw [iblk1_0_apply V c t p k r hr, iblk1_2_apply V c t k, iblk1_3_apply V c t k q]

/-! ## From the blocks to the array -/

/-- What point `t` writes back is block `t` of the second layer of the arrays the region finds. -/
theorem flushed1_eq (c : Dev nD) (t : Fin cfg1.N) :
    (dat1 V c).flushed 4 t
      = ((cfg1.win 4).blk t).view.read (Elt Ideal) (layer2 (ent1_0 V c) (ent1_1 V c) (ent1_2 V c) (ent1_3 V c)) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S5000x1) zero_offsets,
    View.ld_unit_zero (S := S1x64) zero_offsets, View.ld_unit_zero (S := S64x32) zero_offsets]
  obtain ⟨-, -, -, -, -, -, -, -, e8, e9⟩ := idx_facts1 t
  funext j
  show (k1_pay1 (iblk1 V c 0 t) (iblk1 V c 1 t) (iblk1 V c 2 t) (iblk1 V c 3 t) : S5000x32.Idx → EReal) j
    = layer2 (ent1_0 V c) (ent1_1 V c) (ent1_2 V c) (ent1_3 V c) (((cfg1.win 4).blk t).view.emb j)
  have ht : t.val < 20 := t.isLt
  have hj0 : (j 0).val < 5000 := (j 0).isLt
  have hj1 : (j 1).val < 32 := (j 1).isLt
  have hr : t.val * 5000 + (j 0).val < 100000 := by omega
  have hjx : j = ix2 (⟨(j 0).val, hj0⟩ : Fin 5000) (⟨(j 1).val, hj1⟩ : Fin 32) := by
    funext a; match a with | ⟨0, _⟩ => rfl | ⟨1, _⟩ => rfl
  have hemb : ((cfg1.win 4).blk t).view.emb j
      = ix2 (⟨t.val * 5000 + (j 0).val, hr⟩ : Fin 100000) (⟨(j 1).val, hj1⟩ : Fin 32) := by
    funext a; apply Fin.ext
    match a with
    | ⟨0, _⟩ => show win1_4.index t (0 : Fin 2) * 5000 + 1 * (j 0).val = t.val * 5000 + (j 0).val; rw [e8]; omega
    | ⟨1, _⟩ => show win1_4.index t (1 : Fin 2) * 32 + 1 * (j 1).val = (j 1).val; rw [e9]; omega
  refine (congrArg (k1_pay1 (iblk1 V c 0 t) (iblk1 V c 1 t) (iblk1 V c 2 t) (iblk1 V c 3 t) : S5000x32.Idx → EReal) hjx).trans ?_
  rw [hemb]
  exact pay1_blocks V c t ⟨(j 0).val, hj0⟩ ⟨(j 1).val, hj1⟩ ⟨t.val * 5000 + (j 0).val, hr⟩ rfl

/-- An index of the output array is in point `t`'s block iff each coordinate is in the block's range on its axis. -/
theorem mem_blk1 (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v28).slice (win1_4.rect t)).set ↔ _
  rw [View.set_slice_whole, Rect.mem_set_unit]
  exact Iff.rfl

/-- The 20 blocks of 5000 rows cover the output: row `r` is in the block of point `r / 5000`. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have htl : (i 0).val / 5000 < 20 := by omega
  obtain ⟨-, -, -, -, -, -, -, -, e8, e9⟩ := idx_facts1 (⟨(i 0).val / 5000, htl⟩ : Fin cfg1.N)
  refine ⟨⟨(i 0).val / 5000, htl⟩, flush1_4 _, ?_⟩
  rw [mem_blk1]
  intro a
  match a with
  | ⟨0, _⟩ =>
    show win1_4.index ⟨(i 0).val / 5000, htl⟩ (0 : Fin 2) * 5000 ≤ (i 0).val
      ∧ (i 0).val < win1_4.index ⟨(i 0).val / 5000, htl⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, htl⟩ (1 : Fin 2) * 32 ≤ (i 1).val
      ∧ (i 1).val < win1_4.index ⟨(i 0).val / 5000, htl⟩ (1 : Fin 2) * 32 + 32
    rw [e9]; omega

/-- THE OUTPUT ARRAY after the region is the second layer of the arrays the region finds. -/
theorem final1 (c : Dev nD) :
    (dat1 V c).arrAt 4 cfg1.N = layer2 (ent1_0 V c) (ent1_1 V c) (ent1_2 V c) (ent1_3 V c) :=
  (dat1 V c).arrAt_eq_of_cover 4 (layer2 (ent1_0 V c) (ent1_1 V c) (ent1_2 V c) (ent1_3 V c))
    (fun t _ => flushed1_eq V c t) cover1

/-- Entry `(n, f)` of the output array after the region. -/
theorem final1_apply (c : Dev nD) (n : Fin 100000) (f : Fin 32) :
    ((Gen.dat1 (F := Ideal) V c).arrAt 4 cfg1.N : S100000x32.Idx → EReal) (ix2 n f)
      = (∑ k : Fin 64, max (ent1_0 V c (ix2 n k) * ent1_1 V c (ix2 n (0 : Fin 1)) + ent1_2 V c (ix2 (0 : Fin 1) k)) 0
            * ent1_3 V c (ix2 k f))
          * ent1_1 V c (ix2 n (0 : Fin 1)) := by
  rw [final1]; rfl

/-- The same with the four arrays named by the caller. -/
theorem final1_apply_of (c : Dev nD) (a : S100000x64.Idx → EReal) (d : S100000x1.Idx → EReal)
    (b : S1x64.Idx → EReal) (w : S64x32.Idx → EReal) (ha : ent1_0 V c = a) (hd : ent1_1 V c = d)
    (hb : ent1_2 V c = b) (hw : ent1_3 V c = w) (n : Fin 100000) (f : Fin 32) :
    ((Gen.dat1 (F := Ideal) V c).arrAt 4 cfg1.N : S100000x32.Idx → EReal) (ix2 n f)
      = (∑ k : Fin 64, max (a (ix2 n k) * d (ix2 n (0 : Fin 1)) + b (ix2 (0 : Fin 1) k)) 0 * w (ix2 k f))
          * d (ix2 n (0 : Fin 1)) := by
  subst ha hd hb hw
  exact final1_apply V c n f

end Cert.KernelIdeal.RegionValue

end
-- ==== Proof.KernelRun.lean ====
/-
  The idealized kernel program's run with its RESULT kept. The program is five stretches of host operations around two
  kernel regions. Its run is the chain of those seven segments: each host stretch takes every unscoped buffer from one
  boundary's contents to the next (the operations applied in order), each region replaces its arrays by what its
  pipeline leaves and keeps every other buffer. The chain ends with every unscoped buffer at the last boundary's
  contents; read at the result buffer this is the program's value, read at the arguments it is the launch memory.
  The statement is the frame's with one more conjunct: the result buffer holds the last boundary's contents there.
-/
import proofs.«151461_j37177236914410_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result buffer holds the
    last boundary's contents (the fold of the host stretches and the regions' write-backs over the launch memory) and
    the six argument arrays are as launched. -/
theorem run : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Value.lean ====
/-
  The idealized kernel program and the idealized reference compute the same array. With  dinv  the inverse square root of
  the in-degree (a nonnegative real, or zero), X the node features and  A(h)  the aggregation "rows of h at the edges'
  sources, summed at the edges' destinations":
    kernel program:  P1 = (X·W1)·dinv (row-wise),  H = max(A(P1)·dinv + b1, 0),  P2 = (H·W2)·dinv,  out = dinv·A(P2) + b2;
    reference:       H' = max(S(X·W1) + b1, 0),  out' = S(H'·W2) + b2,  S(h) the sum over edges of  h[src]·(dinv[src]·dinv[dst])  into dst.
  The layer law  S(h) = dinv · A(h·dinv)  (row-wise) gives  H = H'  entry by entry, then  out = out'.
-/
import proofs.«151461_j37177236914410_2_alg».proof.Proof.Bridge
import proofs.«151461_j37177236914410_2_alg».proof.Proof.Region0
import proofs.«151461_j37177236914410_2_alg».proof.Proof.Region1
import proofs.«151461_j37177236914410_2_alg».proof.Proof.KernelRun

set_option maxRecDepth 16384

noncomputable section
namespace Cert.Proof.ValueEq
open Idealize.ShloMosaic Idealize.ShloMosaic.TcCoe Idealize.SL.Sem
open Idealize.ShloMosaic.ValueIdx Idealize.ShloMosaic.RowTake Idealize.ShloMosaic.LayoutReads
open Cert.Proof.Bridge
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The arguments' launch contents. -/
abbrev X : (⟨2, ![100000, 128]⟩ : Shape).Idx → EReal := m ((c : Thread Cert.KernelIdeal.nD Cert.KernelIdeal.τ).loc Cert.KernelIdeal.main_arg0)
abbrev E1 : Edges := m ((c : Thread Cert.KernelIdeal.nD Cert.KernelIdeal.τ).loc Cert.KernelIdeal.main_arg1)
abbrev Wa : (⟨2, ![128, 64]⟩ : Shape).Idx → EReal := m ((c : Thread Cert.KernelIdeal.nD Cert.KernelIdeal.τ).loc Cert.KernelIdeal.main_arg2)
abbrev Ba : (⟨1, ![64]⟩ : Shape).Idx → EReal := m ((c : Thread Cert.KernelIdeal.nD Cert.KernelIdeal.τ).loc Cert.KernelIdeal.main_arg3)
abbrev Wb : (⟨2, ![64, 32]⟩ : Shape).Idx → EReal := m ((c : Thread Cert.KernelIdeal.nD Cert.KernelIdeal.τ).loc Cert.KernelIdeal.main_arg4)
abbrev Bb : (⟨1, ![32]⟩ : Shape).Idx → EReal := m ((c : Thread Cert.KernelIdeal.nD Cert.KernelIdeal.τ).loc Cert.KernelIdeal.main_arg5)

/-- What the first region leaves: the first layer's pre-scaled features. -/
abbrev P1 : (⟨2, ![100000, 64]⟩ : Shape).Idx → EReal := (Cert.KernelIdeal.Gen.dat0 (F := Ideal) (Cert.KernelIdeal.Gen.V3 m ρ) c).arrAt 3 Cert.KernelIdeal.cfg0.N
/-- What the second region leaves: the second layer's pre-scaled features. -/
abbrev P2 : (⟨2, ![100000, 32]⟩ : Shape).Idx → EReal := (Cert.KernelIdeal.Gen.dat1 (F := Ideal) (Cert.KernelIdeal.Gen.V5 m ρ) c).arrAt 4 Cert.KernelIdeal.cfg1.N

/-- The column of inverse square roots the regions read, at row n. -/
theorem dcol_apply (n : Fin 100000) :
    (shapeCast Cert.KernelIdeal.S100000x1 (Cert.KernelIdeal.HostValue.dinv (F := Ideal) (E1 m c)) Cert.KernelIdeal.Gen.shapeCasts_S100000_S100000x1 : (⟨2, ![100000, 1]⟩ : Shape).Idx → EReal) (ix2 n (0 : Fin 1))
      = D (E1 m c) (ix1 n) :=
  Cert.Column.shapeCast_a_a1_apply _ Cert.KernelIdeal.Gen.shapeCasts_S100000_S100000x1 n 0

/-- The first region leaves the first layer's features scaled, row by row, by dinv. -/
theorem region0_value (n : Fin 100000) (f : Fin 64) :
    P1 m ρ c (ix2 n f)
      = Cert.ReferenceIdeal.RefValue.feat1 (F := Ideal) (X m c) (Wa m c) (ix2 n f) * D (E1 m c) (ix1 n) := by
  refine (Cert.KernelIdeal.RegionValue.final0_apply_of (Cert.KernelIdeal.Gen.V3 m ρ) c (X m c) (Wa m c)
      (shapeCast Cert.KernelIdeal.S100000x1 (Cert.KernelIdeal.HostValue.dinv (F := Ideal) (E1 m c)) Cert.KernelIdeal.Gen.shapeCasts_S100000_S100000x1)
      (Cert.KernelIdeal.HostValue.W3_arg m ρ c Cert.KernelIdeal.main_arg0 (by simp)) (Cert.KernelIdeal.HostValue.W3_arg m ρ c Cert.KernelIdeal.main_arg2 (by simp)) (Cert.KernelIdeal.HostValue.W3_v15 m ρ c) n f).trans ?_
  rw [dcol_apply m c n]
  refine congrArg (· * D (E1 m c) (ix1 n)) ?_
  exact (dotGeneral_plain_apply Cert.ReferenceIdeal.dot_S100000x128_S128x64_S100000x64_1_0_0_1_n_n rfl rfl rfl rfl rfl rfl none (X m c) (Wa m c) n f).symm

/-- The hidden layer, entry by entry: the reference's and the kernel program's agree. -/
theorem hidden_apply (n : Fin 100000) (k : Fin 64) :
    Cert.ReferenceIdeal.RefValue.hidden (F := Ideal) (X m c) (E1 m c) (Wa m c) (Ba m c) (ix2 n k)
      = max (Cert.KernelIdeal.HostValue.agg64 (F := Ideal) (E1 m c) (P1 m ρ c) (ix2 n k) * D (E1 m c) (ix1 n)
          + (shapeCast Cert.KernelIdeal.S1x64 (Ba m c) Cert.KernelIdeal.Gen.shapeCasts_S64_S1x64 : (⟨2, ![1, 64]⟩ : Shape).Idx → EReal) (ix2 (0 : Fin 1) k)) 0 := by
  unfold Cert.ReferenceIdeal.RefValue.hidden
  rw [ValueIdx.maximumf_apply, ValueIdx.addf_apply,
    layer64 (E1 m c) (Cert.ReferenceIdeal.RefValue.feat1 (F := Ideal) (X m c) (Wa m c)) (P1 m ρ c) (region0_value m ρ c) n k,
    bcast_row_apply, bcast_vec_row_apply, bcast_scalar_apply, ValueIdx.constant_apply, Ideal.ofBits_zero_f32,
    shapeCast_vec_row_apply, mul_comm]

/-- The second region leaves the second layer's features scaled, row by row, by dinv. -/
theorem region1_value (n : Fin 100000) (f : Fin 32) :
    P2 m ρ c (ix2 n f)
      = Cert.ReferenceIdeal.RefValue.feat2 (F := Ideal) (Cert.ReferenceIdeal.RefValue.hidden (F := Ideal) (X m c) (E1 m c) (Wa m c) (Ba m c)) (Wb m c) (ix2 n f) * D (E1 m c) (ix1 n) := by
  refine (Cert.KernelIdeal.RegionValue.final1_apply_of (Cert.KernelIdeal.Gen.V5 m ρ) c (Cert.KernelIdeal.HostValue.agg64 (F := Ideal) (E1 m c) (P1 m ρ c))
      (shapeCast Cert.KernelIdeal.S100000x1 (Cert.KernelIdeal.HostValue.dinv (F := Ideal) (E1 m c)) Cert.KernelIdeal.Gen.shapeCasts_S100000_S100000x1)
      (shapeCast Cert.KernelIdeal.S1x64 (Ba m c) Cert.KernelIdeal.Gen.shapeCasts_S64_S1x64) (Wb m c)
      (Cert.KernelIdeal.HostValue.W5_v26 m ρ c) (Cert.KernelIdeal.HostValue.W5_v15 m ρ c) (Cert.KernelIdeal.HostValue.W5_v27 m ρ c) (Cert.KernelIdeal.HostValue.W5_arg4 m ρ c) n f).trans ?_
  rw [dcol_apply m c n]
  refine congrArg (· * D (E1 m c) (ix1 n)) ?_
  refine Eq.trans ?_ (dotGeneral_plain_apply Cert.ReferenceIdeal.dot_S100000x64_S64x32_S100000x32_1_0_0_1_n_n rfl rfl rfl rfl rfl rfl none
    (Cert.ReferenceIdeal.RefValue.hidden (F := Ideal) (X m c) (E1 m c) (Wa m c) (Ba m c)) (Wb m c) n f).symm
  refine Finset.sum_congr rfl fun k _ => ?_
  rw [hidden_apply m ρ c n k]

/-- THE TWO RESULTS ARE ONE ARRAY. -/
theorem value_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v87 (F := Ideal) m' c = Cert.KernelIdeal.Gen.W7 m ρ c (Proc.devRef .tc Cert.KernelIdeal.main_v43) := by
  rw [Cert.ReferenceIdeal.RefValue.res_eq, h0, h1, h2, h3, h4, h5, Cert.KernelIdeal.HostValue.W7_v43]
  funext i
  obtain ⟨n, f, rfl⟩ : ∃ (n : Fin 100000) (f : Fin 32), i = ix2 n f := ⟨i 0, i 1, eq_ix2 i⟩
  unfold Cert.ReferenceIdeal.RefValue.out
  rw [ValueIdx.addf_apply, ValueIdx.addf_apply, ValueIdx.mulf_apply,
    layer32 (E1 m c) (Cert.ReferenceIdeal.RefValue.feat2 (F := Ideal) (Cert.ReferenceIdeal.RefValue.hidden (F := Ideal) (X m c) (E1 m c) (Wa m c) (Ba m c)) (Wb m c)) (P2 m ρ c)
      (region1_value m ρ c) n f,
    bcast_row_apply, bcast_vec_row_apply, bcast_col_apply, dcol_apply m c n, bcast_row_apply, shapeCast_vec_row_apply]

end Cert.Proof.ValueEq
end
-- ==== Proof.lean ====
/-
  A two-layer graph convolution over 100000 nodes and 1600000 given edges, each node also joined to itself.
  One layer is  out[d] = Σ_{e : dst e = d} h[src e] · (dinv[src e] · dinv[dst e]) + b,  h the node features times the layer's
  weights and  dinv  the inverse square root of the in-degree (zero where the degree is not positive).

  The reference computes the layers as written. The kernel program moves the two factors of the edge coefficient to the
  nodes: a kernel region scales the rows of  h  by  dinv  (and, in the second region, first finishes the previous layer:
  scale by dinv, add the bias, replace negative entries by zero), the host gathers and scatter-adds the scaled rows
  without any coefficient, and the sums are scaled by  dinv  once more.

  The two agree over the extended reals because an edge contributes to node d exactly when its destination is d, so the
  factor dinv[dst e] is dinv[d] on every contributing edge, and dinv[d] is a nonnegative real: multiplication by a
  nonnegative real distributes over sums of extended reals, whatever the summands. No finiteness of the inputs is used.
  The matrix products are plain sums of products on both sides (the change of float format before the kernel's
  matrix unit is the identity on extended reals), and a block of 5000 rows of a product is the product of the block.

  The three frames: the two kernel programs' are the generated frame certificates; the reference's is its run with the
  result dropped. The idealization rewrote nothing.
-/
import proofs.«151461_j37177236914410_2_alg».proof.Defs
import proofs.«151461_j37177236914410_2_alg».proof.Proof.Gen.Kernel
import proofs.«151461_j37177236914410_2_alg».proof.Proof.Gen.Kernel.Skeleton
import proofs.«151461_j37177236914410_2_alg».proof.Proof.Gen.Kernel.Launch
import proofs.«151461_j37177236914410_2_alg».proof.Proof.Gen.Kernel.Points
import proofs.«151461_j37177236914410_2_alg».proof.Proof.Gen.Kernel.Frame
import proofs.«151461_j37177236914410_2_alg».proof.Proof.Gen.KernelIdeal
import proofs.«151461_j37177236914410_2_alg».proof.Proof.Gen.KernelIdeal.Skeleton
import proofs.«151461_j37177236914410_2_alg».proof.Proof.Gen.KernelIdeal.Launch
import proofs.«151461_j37177236914410_2_alg».proof.Proof.Gen.KernelIdeal.Points
import proofs.«151461_j37177236914410_2_alg».proof.Proof.Gen.KernelIdeal.Frame
import proofs.«151461_j37177236914410_2_alg».proof.Proof.Gen.ReferenceIdeal
import proofs.«151461_j37177236914410_2_alg».proof.Proof.Gen.Pre_finite_inputs
import proofs.«151461_j37177236914410_2_alg».proof.Proof.Value
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs run; the kernel program's result is the last boundary's contents at the result buffer, the
    reference's is its composed term, and the two are one array. -/
theorem algebraic : Cert.algebraic_KernelIdeal_ReferenceIdeal := by
  intro m ρ m' ρ' _ hagree
  refine ⟨fun c => Cert.KernelIdeal.Gen.W7 m ρ c (Proc.devRef .tc Cert.KernelIdeal.main_v43),
    Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  exact Cert.Proof.ValueEq.value_eq m ρ c m' h0 h1 h2 h3 h4 h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
